-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x64 : Shape := ⟨2, ![120000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S120000x64 : S_.BroadcastsInDim S120000x64 (![] : Fin 0 → Fin S120000x64.rank)
  reducesTo_S120000x64_S_d0_1 : S120000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x256 .f32) (main_arg9 : FVec F S1 .f32) (main_v33 : IVec S_ 1) : IVec S_ 1 :=
  let main_v34 : FVec F S1x256 .f32 := Host.absf main_arg8
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S1x256 .f32) (main_arg9 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S120000x64 .f32) (main_arg1 : IVec S2x1200000 32) (main_arg2 : FVec F S64x64 .f32) (main_arg3 : FVec F S64 .f32) (main_arg4 : FVec F S256x64 .f32) (main_arg5 : FVec F S256 .f32) (main_arg6 : FVec F S256x256 .f32) (main_arg7 : FVec F S256 .f32) (main_arg8 : FVec F S1x256 .f32) (main_arg9 : FVec F S1 .f32) : IVec S_ 1 :=
  let main_v0 : FVec F S120000x64 .f32 := Host.absf main_arg0
  let main_cst : FVec F S_ .f32 := constant S_ .f32 0x7F800000#32
  let main_v1 : FVec F S120000x64 .f32 := broadcastInDim S120000x64 ![] bcast_S_S120000x64 main_cst
  let main_v2 : IVec S120000x64 1 := cmpf .olt main_v0 main_v1
  let main_c : IVec S_ 1 := constantI S_ 1 1#1
  let main_v3 : IVec S_ 1 := (fun x v => Host.reduce IntOp.andi x v reducesTo_S120000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_v13 main_v16
-- ==== Kernel.lean ====
abbrev S120000x64 : Shape := ⟨2, ![120000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S120000 : Shape := ⟨1, ![120000]⟩
abbrev S1x1200000 : Shape := ⟨2, ![1, 1200000]⟩
abbrev S1200000 : Shape := ⟨1, ![1200000]⟩
abbrev S1320000 : Shape := ⟨1, ![1320000]⟩
abbrev S_ : Shape := ⟨0, ![]⟩
abbrev S1320000x1 : Shape := ⟨2, ![1320000, 1]⟩
abbrev S1320000x64 : Shape := ⟨2, ![1320000, 64]⟩
abbrev S1x64 : Shape := ⟨2, ![1, 64]⟩
abbrev S64x256 : Shape := ⟨2, ![64, 256]⟩
abbrev S1x1 : Shape := ⟨2, ![1, 1]⟩
abbrev S120000x1 : Shape := ⟨2, ![120000, 1]⟩
abbrev S6000x64 : Shape := ⟨2, ![6000, 64]⟩
abbrev S6000x1 : Shape := ⟨2, ![6000, 1]⟩
abbrev S6000x256 : Shape := ⟨2, ![6000, 256]⟩
abbrev S6000 : Shape := ⟨1, ![6000]⟩
abbrev S20000x6x1 : Shape := ⟨3, ![20000, 6, 1]⟩

abbrev nBuf : Space → Nat
  | .hbm => 86
  | .vmem => 12
  | .smem => 0
  | _ => 0

abbrev bufTy : (tb : Table) → Fin (tcTables nBuf tb) → BufTy
  | .hbm, ⟨0, _⟩ => ⟨S120000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S120000, .i32⟩
  | .hbm, ⟨11, _⟩ => ⟨S1x1200000, .i32⟩
  | .hbm, ⟨12, _⟩ => ⟨S1200000, .i32⟩
  | .hbm, ⟨13, _⟩ => ⟨S1320000, .i32⟩
  | .hbm, ⟨14, _⟩ => ⟨S1x1200000, .i32⟩
  | .hbm, ⟨15, _⟩ => ⟨S1200000, .i32⟩
  | .hbm, ⟨16, _⟩ => ⟨S1320000, .i32⟩
  | .hbm, ⟨17, _⟩ => ⟨S_, .f32⟩
  | .hbm, ⟨18, _⟩ => ⟨S120000, .f32⟩
  | .hbm, ⟨19, _⟩ => ⟨S_, .i32⟩
  | .hbm, ⟨20, _⟩ => ⟨S1320000, .i32⟩
  | .hbm, ⟨21, _⟩ => ⟨S1320000, .i1⟩
  | .hbm, ⟨22, _⟩ => ⟨S_, .i32⟩
  | .hbm, ⟨23, _⟩ => ⟨S1320000, .i32⟩
  | .hbm, ⟨24, _⟩ => ⟨S1320000, .i32⟩
  | .hbm, ⟨25, _⟩ => ⟨S1320000, .i32⟩
  | .hbm, ⟨26, _⟩ => ⟨S1320000x1, .i32⟩
  | .hbm, ⟨27, _⟩ => ⟨S_, .f32⟩
  | .hbm, ⟨28, _⟩ => ⟨S1320000, .f32⟩
  | .hbm, ⟨29, _⟩ => ⟨S120000, .f32⟩
  | .hbm, ⟨30, _⟩ => ⟨S_, .f32⟩
  | .hbm, ⟨31, _⟩ => ⟨S120000, .f32⟩
  | .hbm, ⟨32, _⟩ => ⟨S120000, .i1⟩
  | .hbm, ⟨33, _⟩ => ⟨S120000, .f32⟩
  | .hbm, ⟨34, _⟩ => ⟨S_, .f32⟩
  | .hbm, ⟨35, _⟩ => ⟨S_, .f32⟩
  | .hbm, ⟨36, _⟩ => ⟨S120000, .f32⟩
  | .hbm, ⟨37, _⟩ => ⟨S120000, .f32⟩
  | .hbm, ⟨38, _⟩ => ⟨S_, .i32⟩
  | .hbm, ⟨39, _⟩ => ⟨S1320000, .i32⟩
  | .hbm, ⟨40, _⟩ => ⟨S1320000, .i1⟩
  | .hbm, ⟨41, _⟩ => ⟨S_, .i32⟩
  | .hbm, ⟨42, _⟩ => ⟨S1320000, .i32⟩
  | .hbm, ⟨43, _⟩ => ⟨S1320000, .i32⟩
  | .hbm, ⟨44, _⟩ => ⟨S1320000, .i32⟩
  | .hbm, ⟨45, _⟩ => ⟨S1320000x1, .i32⟩
  | .hbm, ⟨46, _⟩ => ⟨S1320000, .f32⟩
  | .hbm, ⟨47, _⟩ => ⟨S_, .i32⟩
  | .hbm, ⟨48, _⟩ => ⟨S1320000, .i32⟩
  | .hbm, ⟨49, _⟩ => ⟨S1320000, .i1⟩
  | .hbm, ⟨50, _⟩ => ⟨S_, .i32⟩
  | .hbm, ⟨51, _⟩ => ⟨S1320000, .i32⟩
  | .hbm, ⟨52, _⟩ => ⟨S1320000, .i32⟩
  | .hbm, ⟨53, _⟩ => ⟨S1320000, .i32⟩
  | .hbm, ⟨54, _⟩ => ⟨S1320000x1, .i32⟩
  | .hbm, ⟨55, _⟩ => ⟨S1320000, .f32⟩
  | .hbm, ⟨56, _⟩ => ⟨S1320000, .f32⟩
  | .hbm, ⟨57, _⟩ => ⟨S120000x64, .f32⟩
  | .hbm, ⟨58, _⟩ => ⟨S_, .i32⟩
  | .hbm, ⟨59, _⟩ => ⟨S1320000, .i32⟩
  | .hbm, ⟨60, _⟩ => ⟨S1320000, .i1⟩
  | .hbm, ⟨61, _⟩ => ⟨S_, .i32⟩
  | .hbm, ⟨62, _⟩ => ⟨S1320000, .i32⟩
  | .hbm, ⟨63, _⟩ => ⟨S1320000, .i32⟩
  | .hbm, ⟨64, _⟩ => ⟨S1320000, .i32⟩
  | .hbm, ⟨65, _⟩ => ⟨S1320000x1, .i32⟩
  | .hbm, ⟨66, _⟩ => ⟨S1320000x64, .f32⟩
  | .hbm, ⟨67, _⟩ => ⟨S1320000x1, .f32⟩
  | .hbm, ⟨68, _⟩ => ⟨S1320000x64, .f32⟩
  | .hbm, ⟨69, _⟩ => ⟨S1320000x64, .f32⟩
  | .hbm, ⟨70, _⟩ => ⟨S_, .f32⟩
  | .hbm, ⟨71, _⟩ => ⟨S120000x64, .f32⟩
  | .hbm, ⟨72, _⟩ => ⟨S1320000x1, .i32⟩
  | .hbm, ⟨73, _⟩ => ⟨S120000x64, .f32⟩
  | .hbm, ⟨74, _⟩ => ⟨S1x64, .f32⟩
  | .hbm, ⟨75, _⟩ => ⟨S120000x64, .f32⟩
  | .hbm, ⟨76, _⟩ => ⟨S120000x64, .f32⟩
  | .hbm, ⟨77, _⟩ => ⟨S64x256, .f32⟩
  | .hbm, ⟨78, _⟩ => ⟨S64x256, .bf16⟩
  | .hbm, ⟨79, _⟩ => ⟨S256x256, .f32⟩
  | .hbm, ⟨80, _⟩ => ⟨S256x256, .bf16⟩
  | .hbm, ⟨81, _⟩ => ⟨S1x256, .f32⟩
  | .hbm, ⟨82, _⟩ => ⟨S1x256, .f32⟩
  | .hbm, ⟨83, _⟩ => ⟨S1x1, .f32⟩
  | .hbm, ⟨84, _⟩ => ⟨S120000x1, .f32⟩
  | .hbm, ⟨85, _⟩ => ⟨S20000x6x1, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S64x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S6000x1, .f32⟩
  | .local _ .vmem, ⟨11, _⟩ => ⟨S6000x1, .f32⟩
  | _, _ => ⟨S120000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S120000_S1320000_d0 : Shape.Concatenates [S1200000, S120000] S1320000 0
  slices_S2x1200000_S1x1200000_1_0 : S2x1200000.Slices ![1, 0] S1x1200000
  bcast_S_S120000 : S_.BroadcastsInDim S120000 (![] : Fin 0 → Fin S120000.rank)
  bcast_S_S1320000 : S_.BroadcastsInDim S1320000 (![] : Fin 0 → Fin S1320000.rank)
  bcast_S1320000_S1320000x1_0 : S1320000.BroadcastsInDim S1320000x1 (![0] : Fin 1 → Fin S1320000x1.rank)
  bcast_S1320000x1_S1320000x64_0_1 : S1320000x1.BroadcastsInDim S1320000x64 (![0, 1] : Fin 2 → Fin S1320000x64.rank)
  bcast_S_S120000x64 : S_.BroadcastsInDim S120000x64 (![] : Fin 0 → Fin S120000x64.rank)
  bcast_S64_S1x64_1 : S64.BroadcastsInDim S1x64 (![1] : Fin 1 → Fin S1x64.rank)
  bcast_S1x64_S120000x64_0_1 : S1x64.BroadcastsInDim S120000x64 (![0, 1] : Fin 2 → Fin S120000x64.rank)
  transposes_S256x64_S64x256_1_0 : S256x64.Transposes [1, 0] S64x256
  bitsLt_bf16_f32 : FTy.bits .bf16 < FTy.bits .f32
  transposes_S256x256_S256x256_1_0 : S256x256.Transposes [1, 0] S256x256
  shapeCasts_S256_S1x256 : S256.ShapeCasts S1x256
  shapeCasts_S1_S1x1 : S1.ShapeCasts S1x1
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6000x256 : S1x256.Broadcasts S6000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S6000x256_S6000 : S6000x256.Reduces [1] S6000
  shapeCasts_S6000_S6000x1 : S6000.ShapeCasts S6000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  shapeCasts_S120000x1_S20000x6x1 : S120000x1.ShapeCasts S20000x6x1
  scatter_S120000_S1320000x1_S1320000_n_0_0_1_wf : ScatterDims.WF S120000 S1320000x1 S1320000 [] [0] [0] 1
  gather_S120000_S1320000x1_S1320000_n_0_n_n_0_1_1_wf : GatherDims.WF S120000 S1320000x1 S1320000 [] [0] [] [0] [] 1 ![1]
  dot_S120000x64_S64x64_S120000x64_1_0_0_1_n_n_wf : DotDims.WF S120000x64 S64x64 S120000x64 [1] [0] [0] [1] [] []
  gather_S120000x64_S1320000x1_S1320000x64_1_0_n_n_0_1_164_wf : GatherDims.WF S120000x64 S1320000x1 S1320000x64 [1] [0] [] [0] [] 1 ![1, 64]
  scatter_S120000x64_S1320000x1_S1320000x64_1_0_0_1_wf : ScatterDims.WF S120000x64 S1320000x1 S1320000x64 [1] [0] [0] 1
  dot_S6000x64_S64x256_S6000x256_1_0_0_1_n_n_wf : DotDims.WF S6000x64 S64x256 S6000x256 [1] [0] [0] [1] [] []
  dot_S6000x256_S256x256_S6000x256_1_0_0_1_n_n_wf : DotDims.WF S6000x256 S256x256 S6000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S120000x64.size a
  hwx0_0 : ∀ i : grid0.Coords, EltTy.bits .f32 = 32 ∨ (Rect.block (s := S120000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S120000x64.size a
  hwx0_1 : ∀ i : grid0.Coords, EltTy.bits .f32 = 32 ∨ (Rect.block (s := S120000x64) S6000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6000x1.size a ≤ S120000x1.size a
  hwx0_8 : ∀ i : grid0.Coords, EltTy.bits .f32 = 32 ∨ (Rect.block (s := S120000x1) S6000x1.size (cc0_transform_8 i) (hinb0_8 i)).WholeWords (EltTy.packing .f32)

variable [Facts₀]

def scatter_S120000_S1320000x1_S1320000_n_0_0_1 : ScatterDims S120000 S1320000x1 S1320000 where
  updateWindowDims := []
  insertedWindowDims := [0]
  scatterDimsToOperandDims := [0]
  indexVectorDim := 1
  wf := scatter_S120000_S1320000x1_S1320000_n_0_0_1_wf
def gather_S120000_S1320000x1_S1320000_n_0_n_n_0_1_1 : GatherDims S120000 S1320000x1 S1320000 where
  offsetDims := []
  collapsedSliceDims := [0]
  operandBatchingDims := []
  startIndicesBatchingDims := []
  startIndexMap := [0]
  indexVectorDim := 1
  sliceSizes := ![1]
  wf := gather_S120000_S1320000x1_S1320000_n_0_n_n_0_1_1_wf
def dot_S120000x64_S64x64_S120000x64_1_0_0_1_n_n : DotDims S120000x64 S64x64 S120000x64 where
  lhsContracting := [1]
  rhsContracting := [0]
  lhsNonContracting := [0]
  rhsNonContracting := [1]
  lhsBatch := []
  rhsBatch := []
  wf := dot_S120000x64_S64x64_S120000x64_1_0_0_1_n_n_wf
def gather_S120000x64_S1320000x1_S1320000x64_1_0_n_n_0_1_164 : GatherDims S120000x64 S1320000x1 S1320000x64 where
  offsetDims := [1]
  collapsedSliceDims := [0]
  operandBatchingDims := []
  startIndicesBatchingDims := []
  startIndexMap := [0]
  indexVectorDim := 1
  sliceSizes := ![1, 64]
  wf := gather_S120000x64_S1320000x1_S1320000x64_1_0_n_n_0_1_164_wf
def scatter_S120000x64_S1320000x1_S1320000x64_1_0_0_1 : ScatterDims S120000x64 S1320000x1 S1320000x64 where
  updateWindowDims := [1]
  insertedWindowDims := [0]
  scatterDimsToOperandDims := [0]
  indexVectorDim := 1
  wf := scatter_S120000x64_S1320000x1_S1320000x64_1_0_0_1_wf
def dot_S6000x64_S64x256_S6000x256_1_0_0_1_n_n : DotDims S6000x64 S64x256 S6000x256 where
  lhsContracting := [1]
  rhsContracting := [0]
  lhsNonContracting := [0]
  rhsNonContracting := [1]
  lhsBatch := []
  rhsBatch := []
  wf := dot_S6000x64_S64x256_S6000x256_1_0_0_1_n_n_wf
def dot_S6000x256_S256x256_S6000x256_1_0_0_1_n_n : DotDims S6000x256 S256x256 S6000x256 where
  lhsContracting := [1]
  rhsContracting := [0]
  lhsNonContracting := [0]
  rhsNonContracting := [1]
  lhsBatch := []
  rhsBatch := []
  wf := dot_S6000x256_S256x256_S6000x256_1_0_0_1_n_n_wf

abbrev win0_0 : Pipeline.Window sig grid0 :=
  Pipeline.Window.ofSpec (Memref.whole main_v51) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v58) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59) S6000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S120000x64 : Shape := ⟨2, ![120000, 64]⟩
abbrev S2x1200000 : Shape := ⟨2, ![2, 1200000]⟩
abbrev S64x64 : Shape := ⟨2, ![64, 64]⟩
abbrev S64 : Shape := ⟨1, ![64]⟩
abbrev S256x64 : Shape := ⟨2, ![256, 64]⟩
abbrev S256 : Shape := ⟨1, ![256]⟩
abbrev S256x256 : Shape := ⟨2, ![256, 256]⟩
abbrev S1x256 : Shape := ⟨2, ![1, 256]⟩
abbrev S1 : Shape := ⟨1, ![1]⟩
abbrev S120000 : Shape := ⟨1, ![120000]⟩
abbrev S1x1200000 : Shape := ⟨2, ![1, 1200000]⟩
abbrev S1200000 : Shape := ⟨1, ![1200000]⟩
abbrev S1320000 : Shape := ⟨1, ![1320000]⟩
abbrev S_ : Shape := ⟨0, ![]⟩
abbrev S1320000x1 : Shape := ⟨2, ![1320000, 1]⟩
abbrev S1320000x64 : Shape := ⟨2, ![1320000, 64]⟩
abbrev S1x64 : Shape := ⟨2, ![1, 64]⟩
abbrev S20000x6x64 : Shape := ⟨3, ![20000, 6, 64]⟩
abbrev S20000x6x256 : Shape := ⟨3, ![20000, 6, 256]⟩
abbrev S1x1x256 : Shape := ⟨3, ![1, 1, 256]⟩
abbrev S20000x6x1 : Shape := ⟨3, ![20000, 6, 1]⟩
abbrev S1x1x1 : Shape := ⟨3, ![1, 1, 1]⟩

abbrev nBuf : Space → Nat
  | .hbm => 108
  | .vmem => 0
  | .smem => 0
  | _ => 0

abbrev bufTy : (tb : Table) → Fin (tcTables nBuf tb) → BufTy
  | .hbm, ⟨0, _⟩ => ⟨S120000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S256x64, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S120000, .i32⟩
  | .hbm, ⟨11, _⟩ => ⟨S1x1200000, .i32⟩
  | .hbm, ⟨12, _⟩ => ⟨S1200000, .i32⟩
  | .hbm, ⟨13, _⟩ => ⟨S1320000, .i32⟩
  | .hbm, ⟨14, _⟩ => ⟨S1x1200000, .i32⟩
  | .hbm, ⟨15, _⟩ => ⟨S1200000, .i32⟩
  | .hbm, ⟨16, _⟩ => ⟨S1320000, .i32⟩
  | .hbm, ⟨17, _⟩ => ⟨S_, .f32⟩
  | .hbm, ⟨18, _⟩ => ⟨S120000, .f32⟩
  | .hbm, ⟨19, _⟩ => ⟨S_, .i32⟩
  | .hbm, ⟨20, _⟩ => ⟨S1320000, .i32⟩
  | .hbm, ⟨21, _⟩ => ⟨S1320000, .i1⟩
  | .hbm, ⟨22, _⟩ => ⟨S_, .i32⟩
  | .hbm, ⟨23, _⟩ => ⟨S1320000, .i32⟩
  | .hbm, ⟨24, _⟩ => ⟨S1320000, .i32⟩
  | .hbm, ⟨25, _⟩ => ⟨S1320000, .i32⟩
  | .hbm, ⟨26, _⟩ => ⟨S1320000x1, .i32⟩
  | .hbm, ⟨27, _⟩ => ⟨S_, .f32⟩
  | .hbm, ⟨28, _⟩ => ⟨S1320000, .f32⟩
  | .hbm, ⟨29, _⟩ => ⟨S120000, .f32⟩
  | .hbm, ⟨30, _⟩ => ⟨S_, .f32⟩
  | .hbm, ⟨31, _⟩ => ⟨S120000, .f32⟩
  | .hbm, ⟨32, _⟩ => ⟨S120000, .i1⟩
  | .hbm, ⟨33, _⟩ => ⟨S120000, .f32⟩
  | .hbm, ⟨34, _⟩ => ⟨S_, .f32⟩
  | .hbm, ⟨35, _⟩ => ⟨S_, .f32⟩
  | .hbm, ⟨36, _⟩ => ⟨S120000, .f32⟩
  | .hbm, ⟨37, _⟩ => ⟨S120000, .f32⟩
  | .hbm, ⟨38, _⟩ => ⟨S_, .i32⟩
  | .hbm, ⟨39, _⟩ => ⟨S1320000, .i32⟩
  | .hbm, ⟨40, _⟩ => ⟨S1320000, .i1⟩
  | .hbm, ⟨41, _⟩ => ⟨S_, .i32⟩
  | .hbm, ⟨42, _⟩ => ⟨S1320000, .i32⟩
  | .hbm, ⟨43, _⟩ => ⟨S1320000, .i32⟩
  | .hbm, ⟨44, _⟩ => ⟨S1320000, .i32⟩
  | .hbm, ⟨45, _⟩ => ⟨S1320000x1, .i32⟩
  | .hbm, ⟨46, _⟩ => ⟨S1320000, .f32⟩
  | .hbm, ⟨47, _⟩ => ⟨S_, .i32⟩
  | .hbm, ⟨48, _⟩ => ⟨S1320000, .i32⟩
  | .hbm, ⟨49, _⟩ => ⟨S1320000, .i1⟩
  | .hbm, ⟨50, _⟩ => ⟨S_, .i32⟩
  | .hbm, ⟨51, _⟩ => ⟨S1320000, .i32⟩
  | .hbm, ⟨52, _⟩ => ⟨S1320000, .i32⟩
  | .hbm, ⟨53, _⟩ => ⟨S1320000, .i32⟩
  | .hbm, ⟨54, _⟩ => ⟨S1320000x1, .i32⟩
  | .hbm, ⟨55, _⟩ => ⟨S1320000, .f32⟩
  | .hbm, ⟨56, _⟩ => ⟨S1320000, .f32⟩
  | .hbm, ⟨57, _⟩ => ⟨S120000x64, .f32⟩
  | .hbm, ⟨58, _⟩ => ⟨S_, .i32⟩
  | .hbm, ⟨59, _⟩ => ⟨S1320000, .i32⟩
  | .hbm, ⟨60, _⟩ => ⟨S1320000, .i1⟩
  | .hbm, ⟨61, _⟩ => ⟨S_, .i32⟩
  | .hbm, ⟨62, _⟩ => ⟨S1320000, .i32⟩
  | .hbm, ⟨63, _⟩ => ⟨S1320000, .i32⟩
  | .hbm, ⟨64, _⟩ => ⟨S1320000, .i32⟩
  | .hbm, ⟨65, _⟩ => ⟨S1320000x1, .i32⟩
  | .hbm, ⟨66, _⟩ => ⟨S1320000x64, .f32⟩
  | .hbm, ⟨67, _⟩ => ⟨S1320000x1, .f32⟩
  | .hbm, ⟨68, _⟩ => ⟨S1320000x64, .f32⟩
  | .hbm, ⟨69, _⟩ => ⟨S1320000x64, .f32⟩
  | .hbm, ⟨70, _⟩ => ⟨S_, .f32⟩
  | .hbm, ⟨71, _⟩ => ⟨S120000x64, .f32⟩
  | .hbm, ⟨72, _⟩ => ⟨S1320000x1, .i32⟩
  | .hbm, ⟨73, _⟩ => ⟨S120000x64, .f32⟩
  | .hbm, ⟨74, _⟩ => ⟨S1x64, .f32⟩
  | .hbm, ⟨75, _⟩ => ⟨S120000x64, .f32⟩
  | .hbm, ⟨76, _⟩ => ⟨S120000x64, .f32⟩
  | .hbm, ⟨77, _⟩ => ⟨S_, .f32⟩
  | .hbm, ⟨78, _⟩ => ⟨S120000x64, .f32⟩
  | .hbm, ⟨79, _⟩ => ⟨S120000x64, .f32⟩
  | .hbm, ⟨80, _⟩ => ⟨S120000x64, .f32⟩
  | .hbm, ⟨81, _⟩ => ⟨S20000x6x64, .f32⟩
  | .hbm, ⟨82, _⟩ => ⟨S20000x6x256, .f32⟩
  | .hbm, ⟨83, _⟩ => ⟨S1x1x256, .f32⟩
  | .hbm, ⟨84, _⟩ => ⟨S20000x6x256, .f32⟩
  | .hbm, ⟨85, _⟩ => ⟨S20000x6x256, .f32⟩
  | .hbm, ⟨86, _⟩ => ⟨S_, .f32⟩
  | .hbm, ⟨87, _⟩ => ⟨S20000x6x256, .f32⟩
  | .hbm, ⟨88, _⟩ => ⟨S20000x6x256, .i1⟩
  | .hbm, ⟨89, _⟩ => ⟨S_, .f32⟩
  | .hbm, ⟨90, _⟩ => ⟨S20000x6x256, .f32⟩
  | .hbm, ⟨91, _⟩ => ⟨S20000x6x256, .f32⟩
  | .hbm, ⟨92, _⟩ => ⟨S20000x6x256, .f32⟩
  | .hbm, ⟨93, _⟩ => ⟨S20000x6x256, .f32⟩
  | .hbm, ⟨94, _⟩ => ⟨S1x1x256, .f32⟩
  | .hbm, ⟨95, _⟩ => ⟨S20000x6x256, .f32⟩
  | .hbm, ⟨96, _⟩ => ⟨S20000x6x256, .f32⟩
  | .hbm, ⟨97, _⟩ => ⟨S_, .f32⟩
  | .hbm, ⟨98, _⟩ => ⟨S20000x6x256, .f32⟩
  | .hbm, ⟨99, _⟩ => ⟨S20000x6x256, .i1⟩
  | .hbm, ⟨100, _⟩ => ⟨S_, .f32⟩
  | .hbm, ⟨101, _⟩ => ⟨S20000x6x256, .f32⟩
  | .hbm, ⟨102, _⟩ => ⟨S20000x6x256, .f32⟩
  | .hbm, ⟨103, _⟩ => ⟨S20000x6x256, .f32⟩
  | .hbm, ⟨104, _⟩ => ⟨S20000x6x1, .f32⟩
  | .hbm, ⟨105, _⟩ => ⟨S1x1x1, .f32⟩
  | .hbm, ⟨106, _⟩ => ⟨S20000x6x1, .f32⟩
  | .hbm, ⟨107, _⟩ => ⟨S20000x6x1, .f32⟩
  | _, _ => ⟨S120000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call1_cst : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call3_cst : Ref sig .tc := ⟨.hbm, 97, rfl⟩
abbrev main_call3_v0 : Ref sig .tc := ⟨.hbm, 98, rfl⟩
abbrev main_call3_v1 : Ref sig .tc := ⟨.hbm, 99, rfl⟩
abbrev main_call3_cst_0 : Ref sig .tc := ⟨.hbm, 100, rfl⟩
abbrev main_call3_v2 : Ref sig .tc := ⟨.hbm, 101, rfl⟩
abbrev main_call3_v3 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S120000_S1320000_d0 : Shape.Concatenates [S1200000, S120000] S1320000 0
  slices_S2x1200000_S1x1200000_1_0 : S2x1200000.Slices ![1, 0] S1x1200000
  bcast_S_S120000 : S_.BroadcastsInDim S120000 (![] : Fin 0 → Fin S120000.rank)
  bcast_S_S1320000 : S_.BroadcastsInDim S1320000 (![] : Fin 0 → Fin S1320000.rank)
  bcast_S1320000_S1320000x1_0 : S1320000.BroadcastsInDim S1320000x1 (![0] : Fin 1 → Fin S1320000x1.rank)
  bcast_S1320000x1_S1320000x64_0_1 : S1320000x1.BroadcastsInDim S1320000x64 (![0, 1] : Fin 2 → Fin S1320000x64.rank)
  bcast_S_S120000x64 : S_.BroadcastsInDim S120000x64 (![] : Fin 0 → Fin S120000x64.rank)
  bcast_S64_S1x64_1 : S64.BroadcastsInDim S1x64 (![1] : Fin 1 → Fin S1x64.rank)
  bcast_S1x64_S120000x64_0_1 : S1x64.BroadcastsInDim S120000x64 (![0, 1] : Fin 2 → Fin S120000x64.rank)
  shapeCasts_S120000x64_S20000x6x64 : S120000x64.ShapeCasts S20000x6x64
  bcast_S256_S1x1x256_2 : S256.BroadcastsInDim S1x1x256 (![2] : Fin 1 → Fin S1x1x256.rank)
  bcast_S1x1x256_S20000x6x256_0_1_2 : S1x1x256.BroadcastsInDim S20000x6x256 (![0, 1, 2] : Fin 3 → Fin S20000x6x256.rank)
  bcast_S_S20000x6x256 : S_.BroadcastsInDim S20000x6x256 (![] : Fin 0 → Fin S20000x6x256.rank)
  bcast_S1_S1x1x1_2 : S1.BroadcastsInDim S1x1x1 (![2] : Fin 1 → Fin S1x1x1.rank)
  bcast_S1x1x1_S20000x6x1_0_1_2 : S1x1x1.BroadcastsInDim S20000x6x1 (![0, 1, 2] : Fin 3 → Fin S20000x6x1.rank)
  scatter_S120000_S1320000x1_S1320000_n_0_0_1_wf : ScatterDims.WF S120000 S1320000x1 S1320000 [] [0] [0] 1
  gather_S120000_S1320000x1_S1320000_n_0_n_n_0_1_1_wf : GatherDims.WF S120000 S1320000x1 S1320000 [] [0] [] [0] [] 1 ![1]
  dot_S120000x64_S64x64_S120000x64_1_0_0_1_n_n_wf : DotDims.WF S120000x64 S64x64 S120000x64 [1] [0] [0] [1] [] []
  gather_S120000x64_S1320000x1_S1320000x64_1_0_n_n_0_1_164_wf : GatherDims.WF S120000x64 S1320000x1 S1320000x64 [1] [0] [] [0] [] 1 ![1, 64]
  scatter_S120000x64_S1320000x1_S1320000x64_1_0_0_1_wf : ScatterDims.WF S120000x64 S1320000x1 S1320000x64 [1] [0] [0] 1
  dot_S20000x6x64_S256x64_S20000x6x256_2_1_01_0_n_n_wf : DotDims.WF S20000x6x64 S256x64 S20000x6x256 [2] [1] [0, 1] [0] [] []
  dot_S20000x6x256_S256x256_S20000x6x256_2_1_01_0_n_n_wf : DotDims.WF S20000x6x256 S256x256 S20000x6x256 [2] [1] [0, 1] [0] [] []
  dot_S20000x6x256_S1x256_S20000x6x1_2_1_01_0_n_n_wf : DotDims.WF S20000x6x256 S1x256 S20000x6x1 [2] [1] [0, 1] [0] [] []

variable [Facts₀]

def scatter_S120000_S1320000x1_S1320000_n_0_0_1 : ScatterDims S120000 S1320000x1 S1320000 where
  updateWindowDims := []
  insertedWindowDims := [0]
  scatterDimsToOperandDims := [0]
  indexVectorDim := 1
  wf := scatter_S120000_S1320000x1_S1320000_n_0_0_1_wf
def gather_S120000_S1320000x1_S1320000_n_0_n_n_0_1_1 : GatherDims S120000 S1320000x1 S1320000 where
  offsetDims := []
  collapsedSliceDims := [0]
  operandBatchingDims := []
  startIndicesBatchingDims := []
  startIndexMap := [0]
  indexVectorDim := 1
  sliceSizes := ![1]
  wf := gather_S120000_S1320000x1_S1320000_n_0_n_n_0_1_1_wf
def dot_S120000x64_S64x64_S120000x64_1_0_0_1_n_n : DotDims S120000x64 S64x64 S120000x64 where
  lhsContracting := [1]
  rhsContracting := [0]
  lhsNonContracting := [0]
  rhsNonContracting := [1]
  lhsBatch := []
  rhsBatch := []
  wf := dot_S120000x64_S64x64_S120000x64_1_0_0_1_n_n_wf
def gather_S120000x64_S1320000x1_S1320000x64_1_0_n_n_0_1_164 : GatherDims S120000x64 S1320000x1 S1320000x64 where
  offsetDims := [1]
  collapsedSliceDims := [0]
  operandBatchingDims := []
  startIndicesBatchingDims := []
  startIndexMap := [0]
  indexVectorDim := 1
  sliceSizes := ![1, 64]
  wf := gather_S120000x64_S1320000x1_S1320000x64_1_0_n_n_0_1_164_wf
def scatter_S120000x64_S1320000x1_S1320000x64_1_0_0_1 : ScatterDims S120000x64 S1320000x1 S1320000x64 where
  updateWindowDims := [1]
  insertedWindowDims := [0]
  scatterDimsToOperandDims := [0]
  indexVectorDim := 1
  wf := scatter_S120000x64_S1320000x1_S1320000x64_1_0_0_1_wf
def dot_S20000x6x64_S256x64_S20000x6x256_2_1_01_0_n_n : DotDims S20000x6x64 S256x64 S20000x6x256 where
  lhsContracting := [2]
  rhsContracting := [1]
  lhsNonContracting := [0, 1]
  rhsNonContracting := [0]
  lhsBatch := []
  rhsBatch := []
  wf := dot_S20000x6x64_S256x64_S20000x6x256_2_1_01_0_n_n_wf
def dot_S20000x6x256_S256x256_S20000x6x256_2_1_01_0_n_n : DotDims S20000x6x256 S256x256 S20000x6x256 where
  lhsContracting := [2]
  rhsContracting := [1]
  lhsNonContracting := [0, 1]
  rhsNonContracting := [0]
  lhsBatch := []
  rhsBatch := []
  wf := dot_S20000x6x256_S256x256_S20000x6x256_2_1_01_0_n_n_wf
def dot_S20000x6x256_S1x256_S20000x6x1_2_1_01_0_n_n : DotDims S20000x6x256 S1x256 S20000x6x1 where
  lhsContracting := [2]
  rhsContracting := [1]
  lhsNonContracting := [0, 1]
  rhsNonContracting := [0]
  lhsBatch := []
  rhsBatch := []
  wf := dot_S20000x6x256_S1x256_S20000x6x1_2_1_01_0_n_n_wf

class Facts : Prop extends Facts₀ where

variable [Facts]
-- ==== Proof.Spec.lean ====
/-
  The function both programs compute, stated once over plain index functions.

  A node's feature row is the aggregated row clamped below at zero plus the input row.  Two dense layers follow,
  each a sum of products over the previous layer's coordinates plus a bias, passed through the leaky rectifier
  (the value itself when it is at least zero, one hundredth of it otherwise — the slope being the float closest
  to 1/100, kept as its bit pattern).  The output is the last layer's row contracted with one weight row, plus a
  scalar bias.  Node `n` of the 120000 sits at position `(n / 6, n % 6)` of the 20000 × 6 result.
-/
import Idealize.ShloMosaic.PureOps.Ideal
import Idealize.ShloMosaic.Lib.ValueIdx

noncomputable section

namespace Cert.Mlp

open Idealize.ShloMosaic Idealize.ShloMosaic.ValueIdx

/-- The leaky rectifier on an extended real: `v` when `v ≥ 0`, the slope times `v` otherwise. -/
def leaky (v : EReal) : EReal :=
  Scalar.select (FloatOps.cmpf (F := Ideal) (φ := .f32) .oge v (Ideal.ofBits .f32 0x00000000#32)) v
    (Ideal.ofBits .f32 0x3C23D70A#32 * v)

/-- The residual row: the aggregated row clamped below at zero, plus the input row. -/
def hid (a x : Fin 64 → EReal) (c : Fin 64) : EReal := max (a c) (Ideal.ofBits .f32 0x00000000#32) + x c

/-- The first dense layer at hidden coordinate `j`. -/
def lay1 (a x : Fin 64 → EReal) (W1 : Fin 256 → Fin 64 → EReal) (b1 : Fin 256 → EReal) (j : Fin 256) : EReal :=
  leaky ((∑ c : Fin 64, hid a x c * W1 j c) + b1 j)

/-- The second dense layer at hidden coordinate `k`. -/
def lay2 (a x : Fin 64 → EReal) (W1 : Fin 256 → Fin 64 → EReal) (b1 : Fin 256 → EReal)
    (W2 : Fin 256 → Fin 256 → EReal) (b2 : Fin 256 → EReal) (k : Fin 256) : EReal :=
  leaky ((∑ j : Fin 256, lay1 a x W1 b1 j * W2 k j) + b2 k)

/-- One node's output: the second layer's row against the projection row, plus the scalar bias. -/
def rowOut (a x : Fin 64 → EReal) (W1 : Fin 256 → Fin 64 → EReal) (b1 : Fin 256 → EReal)
    (W2 : Fin 256 → Fin 256 → EReal) (b2 : Fin 256 → EReal) (wd : Fin 256 → EReal) (bd : EReal) : EReal :=
  (∑ k : Fin 256, lay2 a x W1 b1 W2 b2 k * wd k) + bd

/-- The node at position `(b, a)` of the 20000 × 6 arrangement. -/
def node (b : Fin 20000) (a : Fin 6) : Fin 120000 := ⟨b.val * 6 + a.val, by omega⟩

/-- A node's output from the whole arrays. -/
def nodeOut (agg x : (⟨2, ![120000, 64]⟩ : Shape).Idx → EReal) (W1 : (⟨2, ![256, 64]⟩ : Shape).Idx → EReal)
    (b1 : (⟨1, ![256]⟩ : Shape).Idx → EReal) (W2 : (⟨2, ![256, 256]⟩ : Shape).Idx → EReal)
    (b2 : (⟨1, ![256]⟩ : Shape).Idx → EReal) (Wd : (⟨2, ![1, 256]⟩ : Shape).Idx → EReal)
    (bd : (⟨1, ![1]⟩ : Shape).Idx → EReal) (n : Fin 120000) : EReal :=
  rowOut (fun c => agg (ix2 n c)) (fun c => x (ix2 n c)) (fun j c => W1 (ix2 j c)) (fun j => b1 (ix1 j))
    (fun k j => W2 (ix2 k j)) (fun k => b2 (ix1 k)) (fun k => Wd (ix2 (0 : Fin 1) k)) (bd (ix1 (0 : Fin 1)))

/-- The whole result: position `(b, a, 0)` holds node `6 b + a`'s output. -/
def G (agg x : (⟨2, ![120000, 64]⟩ : Shape).Idx → EReal) (W1 : (⟨2, ![256, 64]⟩ : Shape).Idx → EReal)
    (b1 : (⟨1, ![256]⟩ : Shape).Idx → EReal) (W2 : (⟨2, ![256, 256]⟩ : Shape).Idx → EReal)
    (b2 : (⟨1, ![256]⟩ : Shape).Idx → EReal) (Wd : (⟨2, ![1, 256]⟩ : Shape).Idx → EReal)
    (bd : (⟨1, ![1]⟩ : Shape).Idx → EReal) : (⟨3, ![20000, 6, 1]⟩ : Shape).Idx → EReal :=
  fun i => nodeOut agg x W1 b1 W2 b2 Wd bd (node (i 0) (i 1))

theorem G_apply (agg x : (⟨2, ![120000, 64]⟩ : Shape).Idx → EReal) (W1 : (⟨2, ![256, 64]⟩ : Shape).Idx → EReal)
    (b1 : (⟨1, ![256]⟩ : Shape).Idx → EReal) (W2 : (⟨2, ![256, 256]⟩ : Shape).Idx → EReal)
    (b2 : (⟨1, ![256]⟩ : Shape).Idx → EReal) (Wd : (⟨2, ![1, 256]⟩ : Shape).Idx → EReal)
    (bd : (⟨1, ![1]⟩ : Shape).Idx → EReal) (b : Fin 20000) (a : Fin 6) (u : Fin 1) :
    G agg x W1 b1 W2 b2 Wd bd (ix3 b a u) = nodeOut agg x W1 b1 W2 b2 Wd bd (node b a) := rfl

end Cert.Mlp

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowsCols.lean ====
/-
  A matrix product of rows by columns, read at a row and a column.

  When the left operand's columns are contracted against the right operand's rows, the product at `(a, c)` — on the
  TensorCore into a zero accumulator, or the host's `dot_general` — is, at the ideal values, the sum over the shared
  coordinate `k` of the left operand at `(a, k)` times the right operand at `(k, c)`.
-/
import Idealize.ShloMosaic.PureOps.Ideal.Laws
import Idealize.ShloMosaic.Lib.ValueIdx
import proofs.«110510_j54503134986926_2_alg».proof.Proof.LibContract

namespace Idealize.ShloMosaic.RowsCols

open Idealize.ShloMosaic.ValueIdx

variable {M K N : Nat} (d : DotDims ⟨2, ![M, K]⟩ ⟨2, ![K, N]⟩ ⟨2, ![M, N]⟩)
  (hcl : d.lhsContracting = [1]) (hcr : d.rhsContracting = [0])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr1 : ∀ (j : (⟨2, ![M, N]⟩ : Shape).Idx) (q : d.contr.Idx), (d.rhsIdx j q 1).val = (j 1).val)

include hcl hl0 in
/-- The left operand's index at output `(a, c)` and shared coordinate `k` is `(a, k)`. -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr1 in
/-- The right operand's index at output `(a, c)` and shared coordinate `k` is `(k, c)`. -/
theorem rhsIdx_eq (a : Fin M) (c : Fin N) (k : Fin K) :
    d.rhsIdx (ix2 a c) ((contrEquiv1 d K hrank hsize).symm k) = ix2 k c := by
  have hk := contrEquiv1_symm_val d K hrank hsize k
  funext x
  refine Fin.ext ?_
  match x with
  | ⟨0, _⟩ => exact (d.rhsIdx_val_of_single hcr _ _).trans hk
  | ⟨1, _⟩ => exact hr1 _ _

include hcl hcr hrank hsize hl0 hr1 in
/-- The TensorCore product into the zero accumulator at `(a, c)`. -/
theorem matmul_zero_apply {φ₁ φ₂ : FTy} (prec : Option ContractPrecision)
    (lhs : FVec Ideal ⟨2, ![M, K]⟩ φ₁) (rhs : FVec Ideal ⟨2, ![K, N]⟩ φ₂) (a : Fin M) (c : Fin N) :
    FloatOps.matmul d prec lhs rhs (constant ⟨2, ![M, N]⟩ .f32 0x00000000#32) (ix2 a c) = ∑ k : Fin K, lhs (ix2 a k) * rhs (ix2 k c) :=
  ContractSingle.matmul_zero_single d prec K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

include hcl hcr hrank hsize hl0 hr1 in
/-- The host's `dot_general` at `(a, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (a : Fin M) (c : Fin N) :
    FloatOps.dotGeneral d prec sched lhs rhs (ix2 a c) = ∑ k : Fin K, lhs (ix2 a k) * rhs (ix2 k c) :=
  ContractSingle.dotGeneral_single d prec sched K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

end Idealize.ShloMosaic.RowsCols
-- ==== Proof.LibRowLayout.lean ====
/-
  Layout operations on matrices, read at a row and a column.

  Two matrices with the same rows set side by side read, at a column, the left one when the column is inside its width
  and the right one, the left width less, otherwise. Two vectors set end to end read the same way. A column vector
  (one entry per row) spread over the columns reads its row's entry at every column; a vector given a trailing unit
  axis reads its entry at the row. A scalar spread over any shape reads the scalar.
-/
import Idealize.ShloMosaic.Lib.Pipeline.Value
import Idealize.ShloMosaic.Lib.ValueIdx
import Idealize.ShloMosaic.Lib.ValueLayout

namespace Idealize.ShloMosaic.RowLayout

open Idealize.ShloMosaic.ValueIdx

variable {α : Type}

/-- Side by side along the columns: a column inside the left width reads the left matrix there. -/
theorem concat_cols_left {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin a)
    (hk : k'.val = k.val) :
    concatenate ⟨2, ![n, c]⟩ 1 [⟨⟨2, ![n, a]⟩, x₁⟩, ⟨⟨2, ![n, b]⟩, x₂⟩] h (ix2 r k) = x₁ (ix2 r k') :=
  concatenate_pair_apply_left 1 x₁ x₂ h (ix2 r k) rfl (ix2 r k') fun d => by
    match d with
    | ⟨0, _⟩ => rfl
    | ⟨1, _⟩ => exact hk

/-- Side by side along the columns: a column past the left width reads the right matrix, the left width less. -/
theorem concat_cols_right {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin b)
    (hk : k'.val + a = k.val) :
    concatenate ⟨2, ![n, c]⟩ 1 [⟨⟨2, ![n, a]⟩, x₁⟩, ⟨⟨2, ![n, b]⟩, x₂⟩] h (ix2 r k) = x₂ (ix2 r k') :=
  concatenate_pair_apply_right 1 x₁ x₂ h (ix2 r k) rfl rfl (ix2 r k') (fun d hd => by
    match d with
    | ⟨0, _⟩ => rfl
    | ⟨1, _⟩ => exact absurd rfl hd) hk

/-- End to end: a position inside the first length reads the first vector there. -/
theorem concat_vec_left {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin a) (hk : k'.val = k.val) :
    concatenate ⟨1, ![c]⟩ 0 [⟨⟨1, ![a]⟩, x₁⟩, ⟨⟨1, ![b]⟩, x₂⟩] h (ix1 k) = x₁ (ix1 k') :=
  concatenate_pair_apply_left 0 x₁ x₂ h (ix1 k) rfl (ix1 k') fun d => by
    match d with
    | ⟨0, _⟩ => exact hk

/-- End to end: a position past the first length reads the second vector, the first length less. -/
theorem concat_vec_right {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin b) (hk : k'.val + a = k.val) :
    concatenate ⟨1, ![c]⟩ 0 [⟨⟨1, ![a]⟩, x₁⟩, ⟨⟨1, ![b]⟩, x₂⟩] h (ix1 k) = x₂ (ix1 k') :=
  concatenate_pair_apply_right 0 x₁ x₂ h (ix1 k) rfl rfl (ix1 k') (fun d hd => by
    match d with
    | ⟨0, _⟩ => exact absurd rfl hd) hk

/-- A column vector spread over `b` columns reads, at `(p, c)`, its entry of row `p`. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis reads, at `(p, u)`, its entry `p`. -/
theorem shapeCast_a_a1_apply {a : Nat} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A scalar spread over any shape reads the scalar everywhere. -/
theorem spread_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- Two pieces joined along an axis, as a function of the two pieces: the library's `concatenate` of the two-element list of
    the pieces paired with their shapes. -/
def concat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ x₁ x₂ h := rfl

end Idealize.ShloMosaic.RowLayout
-- ==== Proof.KPayload.lean ====
/-
  The kernel body's arithmetic, read at one row of a block.

  One grid point holds 6000 rows.  For each row the body clamps the aggregated row below at zero and adds the
  input row, applies two dense layers (a product of rows by columns into a zero accumulator, a bias row spread
  over the rows, the leaky rectifier), multiplies the last layer's row by the projection row, sums over the 256
  lanes, and adds the scalar bias.  Changes of float format are the identity on the extended reals.  Read at
  row `r`, this is the specification's row function of the row's entries.
-/
import proofs.«110510_j54503134986926_2_alg».proof.Proof.Gen.KernelIdeal.Skeleton
import proofs.«110510_j54503134986926_2_alg».proof.Proof.Spec
import proofs.«110510_j54503134986926_2_alg».proof.Proof.LibRowsCols
import proofs.«110510_j54503134986926_2_alg».proof.Proof.LibRowLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal

open Cert.KernelIdeal.Facts₀ Cert.KernelIdeal.Facts

/-! ### The two products' records, coordinate by coordinate: the left operand's row is the output's row, the right
    operand's column the output's column -/

theorem d1_lhs0 (j : S6000x256.Idx) (q : dot_S6000x64_S64x256_S6000x256_1_0_0_1_n_n.contr.Idx) : (dot_S6000x64_S64x256_S6000x256_1_0_0_1_n_n.lhsIdx j q 0).val = (j 0).val := by
  simp [DotDims.lhsIdx, dot_S6000x64_S64x256_S6000x256_1_0_0_1_n_n]; rfl

theorem d1_rhs1 (j : S6000x256.Idx) (q : dot_S6000x64_S64x256_S6000x256_1_0_0_1_n_n.contr.Idx) : (dot_S6000x64_S64x256_S6000x256_1_0_0_1_n_n.rhsIdx j q 1).val = (j 1).val := by
  simp [DotDims.rhsIdx, dot_S6000x64_S64x256_S6000x256_1_0_0_1_n_n]; rfl

theorem d2_lhs0 (j : S6000x256.Idx) (q : dot_S6000x256_S256x256_S6000x256_1_0_0_1_n_n.contr.Idx) : (dot_S6000x256_S256x256_S6000x256_1_0_0_1_n_n.lhsIdx j q 0).val = (j 0).val := by
  simp [DotDims.lhsIdx, dot_S6000x256_S256x256_S6000x256_1_0_0_1_n_n]; rfl

theorem d2_rhs1 (j : S6000x256.Idx) (q : dot_S6000x256_S256x256_S6000x256_1_0_0_1_n_n.contr.Idx) : (dot_S6000x256_S256x256_S6000x256_1_0_0_1_n_n.rhsIdx j q 1).val = (j 1).val := by
  simp [DotDims.rhsIdx, dot_S6000x256_S256x256_S6000x256_1_0_0_1_n_n]; rfl

/-- The first product into the zero accumulator at `(r, j)`: the sum over the 64 shared coordinates. -/
theorem mm1_apply (a : FVec Ideal S6000x64 .bf16) (w : FVec Ideal S64x256 .bf16) (r : Fin 6000) (j : Fin 256) :
    matmul dot_S6000x64_S64x256_S6000x256_1_0_0_1_n_n none a w (constant S6000x256 .f32 0x00000000#32) (ix2 r j) = ∑ c : Fin 64, a (ix2 r c) * w (ix2 c j) :=
  RowsCols.matmul_zero_apply dot_S6000x64_S64x256_S6000x256_1_0_0_1_n_n rfl rfl rfl rfl d1_lhs0 d1_rhs1 none a w r j

/-- The second product into the zero accumulator at `(r, k)`: the sum over the 256 shared coordinates. -/
theorem mm2_apply (a : FVec Ideal S6000x256 .bf16) (w : FVec Ideal S256x256 .bf16) (r : Fin 6000) (k : Fin 256) :
    matmul dot_S6000x256_S256x256_S6000x256_1_0_0_1_n_n none a w (constant S6000x256 .f32 0x00000000#32) (ix2 r k) = ∑ j : Fin 256, a (ix2 r j) * w (ix2 j k) :=
  RowsCols.matmul_zero_apply dot_S6000x256_S256x256_S6000x256_1_0_0_1_n_n rfl rfl rfl rfl d2_lhs0 d2_rhs1 none a w r k

/-- The sum over the 256 lanes at row `r`. -/
theorem lanesum_apply (v : FVec Ideal S6000x256 .f32) (r : Fin 6000) :
    multiReduction (F := Ideal) .add [1] S6000 v 0x00000000#32 reduces_S6000x256_S6000 (.inl rfl) rfl (ix1 r)
      = ∑ k : Fin 256, v (ix2 r k) := by
  refine (Ideal.multiReduction_add_single v 0x00000000#32 reduces_S6000x256_S6000 (.inl rfl) rfl (ix1 r)).trans ?_
  refine Finset.sum_congr rfl fun k _ => congrArg v ?_
  funext a
  match a with
  | ⟨0, _⟩ => rfl
  | ⟨1, _⟩ => rfl

/-! ### The body's stages -/

/-- The leaky rectifier as the body spells it: compare with zero, multiply by the slope, choose. -/
def leakyV (v : FVec Ideal S6000x256 .f32) : FVec Ideal S6000x256 .f32 :=
  select (cmpf .oge v (broadcast S6000x256 (Scalar.ofBits (F := Ideal) .f32 0x00000000#32))) v
    (mulf (broadcast S6000x256 (Scalar.ofBits (F := Ideal) .f32 0x3C23D70A#32)) v)

theorem leakyV_apply (v : FVec Ideal S6000x256 .f32) (i : S6000x256.Idx) : leakyV v i = Cert.Mlp.leaky (v i) := rfl

/-- The residual block: the aggregated block clamped below at zero plus the input block. -/
def hidV (x0 x1 : Vec Ideal S6000x64 .f32) : FVec Ideal S6000x64 .bf16 :=
  truncf .bf16 (addf (maximumf (shapeCast S6000x64 x0 shapeCasts_S6000x64_S6000x64)
    (broadcast S6000x64 (Scalar.ofBits (F := Ideal) .f32 0x00000000#32))) x1) bitsLt_bf16_f32

theorem hidV_apply (x0 x1 : Vec Ideal S6000x64 .f32) (r : Fin 6000) (c : Fin 64) :
    hidV x0 x1 (ix2 r c) = Cert.Mlp.hid (fun c => x0 (ix2 r c)) (fun c => x1 (ix2 r c)) c := by
  unfold hidV
  rw [shapeCast_self]
  rfl

/-- The first layer before its rectifier. -/
def pre1 (x0 x1 : Vec Ideal S6000x64 .f32) (x2 : Vec Ideal S64x256 .bf16) (x3 : Vec Ideal S1x256 .f32) : FVec Ideal S6000x256 .f32 :=
  addf (matmul dot_S6000x64_S64x256_S6000x256_1_0_0_1_n_n none (hidV x0 x1) (shapeCast S64x256 x2 shapeCasts_S64x256_S64x256 : FVec Ideal S64x256 .bf16) (constant S6000x256 .f32 0x00000000#32))
    (broadcastTo S6000x256 (shapeCast S1x256 x3 shapeCasts_S1x256_S1x256 : FVec Ideal S1x256 .f32) broadcasts_S1x256_S6000x256)

theorem pre1_apply (x0 x1 : Vec Ideal S6000x64 .f32) (x2 : Vec Ideal S64x256 .bf16) (x3 : Vec Ideal S1x256 .f32)
    (r : Fin 6000) (j : Fin 256) :
    pre1 x0 x1 x2 x3 (ix2 r j)
      = (∑ c : Fin 64, Cert.Mlp.hid (fun c => x0 (ix2 r c)) (fun c => x1 (ix2 r c)) c * x2 (ix2 c j)) + x3 (ix2 (0 : Fin 1) j) := by
  unfold pre1
  rw [addf_apply, mm1_apply, broadcastTo_1b_ab_apply, shapeCast_self, shapeCast_self]
  exact congrArg (· + x3 (ix2 (0 : Fin 1) j)) (Finset.sum_congr rfl fun c _ => congrArg (· * x2 (ix2 c j)) (hidV_apply x0 x1 r c))

/-- The first layer, in the second product's format. -/
def act1 (x0 x1 : Vec Ideal S6000x64 .f32) (x2 : Vec Ideal S64x256 .bf16) (x3 : Vec Ideal S1x256 .f32) : FVec Ideal S6000x256 .bf16 :=
  truncf .bf16 (leakyV (pre1 x0 x1 x2 x3)) bitsLt_bf16_f32

theorem act1_apply (x0 x1 : Vec Ideal S6000x64 .f32) (x2 : Vec Ideal S64x256 .bf16) (x3 : Vec Ideal S1x256 .f32)
    (r : Fin 6000) (j : Fin 256) :
    act1 x0 x1 x2 x3 (ix2 r j)
      = Cert.Mlp.lay1 (fun c => x0 (ix2 r c)) (fun c => x1 (ix2 r c)) (fun j c => x2 (ix2 c j)) (fun j => x3 (ix2 (0 : Fin 1) j)) j := by
  unfold act1 Cert.Mlp.lay1
  rw [truncf_apply, leakyV_apply, pre1_apply]

/-- The second layer before its rectifier. -/
def pre2 (x0 x1 : Vec Ideal S6000x64 .f32) (x2 : Vec Ideal S64x256 .bf16) (x3 : Vec Ideal S1x256 .f32)
    (x4 : Vec Ideal S256x256 .bf16) (x5 : Vec Ideal S1x256 .f32) : FVec Ideal S6000x256 .f32 :=
  addf (matmul dot_S6000x256_S256x256_S6000x256_1_0_0_1_n_n none (act1 x0 x1 x2 x3) (shapeCast S256x256 x4 shapeCasts_S256x256_S256x256 : FVec Ideal S256x256 .bf16) (constant S6000x256 .f32 0x00000000#32))
    (broadcastTo S6000x256 (shapeCast S1x256 x5 shapeCasts_S1x256_S1x256 : FVec Ideal S1x256 .f32) broadcasts_S1x256_S6000x256)

theorem pre2_apply (x0 x1 : Vec Ideal S6000x64 .f32) (x2 : Vec Ideal S64x256 .bf16) (x3 : Vec Ideal S1x256 .f32)
    (x4 : Vec Ideal S256x256 .bf16) (x5 : Vec Ideal S1x256 .f32) (r : Fin 6000) (k : Fin 256) :
    pre2 x0 x1 x2 x3 x4 x5 (ix2 r k)
      = (∑ j : Fin 256, Cert.Mlp.lay1 (fun c => x0 (ix2 r c)) (fun c => x1 (ix2 r c)) (fun j c => x2 (ix2 c j))
            (fun j => x3 (ix2 (0 : Fin 1) j)) j * x4 (ix2 j k)) + x5 (ix2 (0 : Fin 1) k) := by
  unfold pre2
  rw [addf_apply, mm2_apply, broadcastTo_1b_ab_apply, shapeCast_self, shapeCast_self]
  exact congrArg (· + x5 (ix2 (0 : Fin 1) k)) (Finset.sum_congr rfl fun j _ => congrArg (· * x4 (ix2 j k)) (act1_apply x0 x1 x2 x3 r j))

/-- The second layer. -/
def act2 (x0 x1 : Vec Ideal S6000x64 .f32) (x2 : Vec Ideal S64x256 .bf16) (x3 : Vec Ideal S1x256 .f32)
    (x4 : Vec Ideal S256x256 .bf16) (x5 : Vec Ideal S1x256 .f32) : FVec Ideal S6000x256 .f32 :=
  leakyV (pre2 x0 x1 x2 x3 x4 x5)

theorem act2_apply (x0 x1 : Vec Ideal S6000x64 .f32) (x2 : Vec Ideal S64x256 .bf16) (x3 : Vec Ideal S1x256 .f32)
    (x4 : Vec Ideal S256x256 .bf16) (x5 : Vec Ideal S1x256 .f32) (r : Fin 6000) (k : Fin 256) :
    act2 x0 x1 x2 x3 x4 x5 (ix2 r k)
      = Cert.Mlp.lay2 (fun c => x0 (ix2 r c)) (fun c => x1 (ix2 r c)) (fun j c => x2 (ix2 c j)) (fun j => x3 (ix2 (0 : Fin 1) j))
          (fun k j => x4 (ix2 j k)) (fun k => x5 (ix2 (0 : Fin 1) k)) k := by
  unfold act2 Cert.Mlp.lay2
  rw [leakyV_apply, pre2_apply]

/-- The first payload is the stages' composition: the lane sum of the second layer times the projection row, given a
    trailing unit axis. -/
theorem pay2_eq (x0 x1 : Vec Ideal S6000x64 .f32) (x2 : Vec Ideal S64x256 .bf16) (x3 : Vec Ideal S1x256 .f32)
    (x4 : Vec Ideal S256x256 .bf16) (x5 x6 : Vec Ideal S1x256 .f32) :
    Gen.k0_pay2 (F := Ideal) x0 x1 x2 x3 x4 x5 x6
      = shapeCast S6000x1 (multiReduction (F := Ideal) .add [1] S6000
          (mulf (act2 x0 x1 x2 x3 x4 x5) (broadcastTo S6000x256 x6 broadcasts_S1x256_S6000x256))
          0x00000000#32 reduces_S6000x256_S6000 (.inl rfl) rfl) shapeCasts_S6000_S6000x1 := rfl

/-- The first payload at row `r`: the second layer's row against the projection row. -/
theorem pay2_apply (x0 x1 : Vec Ideal S6000x64 .f32) (x2 : Vec Ideal S64x256 .bf16) (x3 : Vec Ideal S1x256 .f32)
    (x4 : Vec Ideal S256x256 .bf16) (x5 x6 : Vec Ideal S1x256 .f32) (r : Fin 6000) (u : Fin 1) :
    Gen.k0_pay2 (F := Ideal) x0 x1 x2 x3 x4 x5 x6 (ix2 r u)
      = ∑ k : Fin 256, Cert.Mlp.lay2 (fun c => x0 (ix2 r c)) (fun c => x1 (ix2 r c)) (fun j c => x2 (ix2 c j))
          (fun j => x3 (ix2 (0 : Fin 1) j)) (fun k j => x4 (ix2 j k)) (fun k => x5 (ix2 (0 : Fin 1) k)) k * x6 (ix2 (0 : Fin 1) k) := by
  rw [pay2_eq]
  refine (RowLayout.shapeCast_a_a1_apply _ shapeCasts_S6000_S6000x1 r u).trans ?_
  refine (lanesum_apply _ r).trans ?_
  refine Finset.sum_congr rfl fun k _ => ?_
  rw [mulf_apply, act2_apply, broadcastTo_1b_ab_apply]

/-- The second payload adds the scalar bias, spread over the rows. -/
theorem pay1_apply (v : FVec Ideal S6000x1 .f32) (x7 : Vec Ideal S1x1 .f32) (r : Fin 6000) (u : Fin 1) :
    Gen.k0_pay1 (F := Ideal) v x7 (ix2 r u) = v (ix2 r u) + x7 (ix2 (0 : Fin 1) (0 : Fin 1)) := by
  obtain rfl : u = 0 := Subsingleton.elim _ _
  unfold Gen.k0_pay1
  show v (ix2 r (0 : Fin 1)) + broadcastTo S6000x1 (shapeCast S1x1 x7 shapeCasts_S1x1_S1x1) broadcasts_S1x1_S6000x1 (ix2 r (0 : Fin 1)) = _
  rw [broadcastTo_1b_ab_apply, shapeCast_self]

theorem pay_apply (x0 x1 : Vec Ideal S6000x64 .f32) (x2 : Vec Ideal S64x256 .bf16) (x3 : Vec Ideal S1x256 .f32)
    (x4 : Vec Ideal S256x256 .bf16) (x5 x6 : Vec Ideal S1x256 .f32) (x7 : Vec Ideal S1x1 .f32) (r : Fin 6000) (u : Fin 1) :
    Gen.k0_pay1 (F := Ideal) (Gen.k0_pay2 x0 x1 x2 x3 x4 x5 x6) x7 (ix2 r u)
      = Cert.Mlp.rowOut (fun c => x0 (ix2 r c)) (fun c => x1 (ix2 r c)) (fun j c => x2 (ix2 c j))
          (fun j => x3 (ix2 (0 : Fin 1) j)) (fun k j => x4 (ix2 j k)) (fun k => x5 (ix2 (0 : Fin 1) k))
          (fun k => x6 (ix2 (0 : Fin 1) k)) (x7 (ix2 (0 : Fin 1) (0 : Fin 1))) := by
  rw [pay1_apply, pay2_apply]
  rfl

end Cert.KernelIdeal.Pay

end
-- ==== Proof.KBlocks.lean ====
/-
  The kernel's result array, index by index.

  The grid has twenty points; point `t` works on rows `6000 t … 6000 t + 5999` of the aggregated features and of the
  input, and on the whole of every weight array.  Its body's one store fills its 6000 × 1 output block with the
  per-row value of the specification; the twenty blocks tile the 120000 × 1 result, so the result array ends holding,
  at row `n`, the specification's value of row `n` of the arrays the region was entered with.
-/
import proofs.«110510_j54503134986926_2_alg».proof.Proof.Gen.KernelIdeal.Frame
import proofs.«110510_j54503134986926_2_alg».proof.Proof.Spec
import proofs.«110510_j54503134986926_2_alg».proof.Proof.KPayload
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows (aggregated features, input, result) sit at block
    `(t, 0)`, every weight window at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

variable {c : Dev nD}

/-- A row-blocked input window's block at point `t` holds rows `6000 t + r` of its array: the aggregated features. -/
theorem read_agg (Vv : (b : Ref sig .tc) → Buf (Elt Ideal) ((c : Thread nD τ).loc b)) (t : Fin cfg0.N) (r : Fin 6000) (k : Fin 64)
    (n : Fin 120000) (hn : n.val = 6000 * t.val + r.val) :
    (((cfg0.win 0).blk t).view.read (Elt Ideal) (Vv (Pipeline.arrRef spec0 0)) : S6000x64.Idx → EReal) (ix2 r k)
      = (Vv main_v51 : S120000x64.Idx → EReal) (ix2 n k) := by
  obtain ⟨e0, e1, -⟩ := idx_facts t
  rw [View.read_apply]
  refine congrArg (Vv main_v51) ?_
  funext a
  apply Fin.ext
  match a with
  | ⟨0, _⟩ => show win0_0.index t (0 : Fin 2) * 6000 + 1 * r.val = n.val; rw [e0, hn]; omega
  | ⟨1, _⟩ => show win0_0.index t (1 : Fin 2) * 64 + 1 * k.val = k.val; rw [e1]; omega

/-- The same for the input features. -/
theorem read_x (Vv : (b : Ref sig .tc) → Buf (Elt Ideal) ((c : Thread nD τ).loc b)) (t : Fin cfg0.N) (r : Fin 6000) (k : Fin 64)
    (n : Fin 120000) (hn : n.val = 6000 * t.val + r.val) :
    (((cfg0.win 1).blk t).view.read (Elt Ideal) (Vv (Pipeline.arrRef spec0 1)) : S6000x64.Idx → EReal) (ix2 r k)
      = (Vv main_arg0 : S120000x64.Idx → EReal) (ix2 n k) := by
  obtain ⟨-, -, e0, e1, -⟩ := idx_facts t
  rw [View.read_apply]
  refine congrArg (Vv main_arg0) ?_
  funext a
  apply Fin.ext
  match a with
  | ⟨0, _⟩ => show win0_1.index t (0 : Fin 2) * 6000 + 1 * r.val = n.val; rw [e0, hn]; omega
  | ⟨1, _⟩ => show win0_1.index t (1 : Fin 2) * 64 + 1 * k.val = k.val; rw [e1]; omega

/-- A weight window's one block is its whole array: the first layer's transposed weights. -/
theorem read_w1 (Vv : (b : Ref sig .tc) → Buf (Elt Ideal) ((c : Thread nD τ).loc b)) (t : Fin cfg0.N) (y : S64x256.Idx) :
    (((cfg0.win 2).blk t).view.read (Elt Ideal) (Vv (Pipeline.arrRef spec0 2)) : S64x256.Idx → EReal) y = (Vv main_v53 : S64x256.Idx → EReal) y := by
  obtain ⟨-, -, -, -, e20, e21, e30, e31, e40, e41, e50, e51, e60, e61, e70, e71, -⟩ := idx_facts t
  rw [View.read_apply]
  refine congrArg (Vv main_v53) ?_
  funext a
  apply Fin.ext
  match a with
  | ⟨0, _⟩ => show win0_2.index t (0 : Fin 2) * 64 + 1 * (y 0).val = (y 0).val; rw [e20]; omega
  | ⟨1, _⟩ => show win0_2.index t (1 : Fin 2) * 256 + 1 * (y 1).val = (y 1).val; rw [e21]; omega

/-- The first layer's bias row. -/
theorem read_b1 (Vv : (b : Ref sig .tc) → Buf (Elt Ideal) ((c : Thread nD τ).loc b)) (t : Fin cfg0.N) (y : S1x256.Idx) :
    (((cfg0.win 3).blk t).view.read (Elt Ideal) (Vv (Pipeline.arrRef spec0 3)) : S1x256.Idx → EReal) y = (Vv main_v56 : S1x256.Idx → EReal) y := by
  obtain ⟨-, -, -, -, e20, e21, e30, e31, e40, e41, e50, e51, e60, e61, e70, e71, -⟩ := idx_facts t
  rw [View.read_apply]
  refine congrArg (Vv main_v56) ?_
  funext a
  apply Fin.ext
  match a with
  | ⟨0, _⟩ => show win0_3.index t (0 : Fin 2) * 1 + 1 * (y 0).val = (y 0).val; rw [e30]; omega
  | ⟨1, _⟩ => show win0_3.index t (1 : Fin 2) * 256 + 1 * (y 1).val = (y 1).val; rw [e31]; omega

/-- The second layer's transposed weights. -/
theorem read_w2 (Vv : (b : Ref sig .tc) → Buf (Elt Ideal) ((c : Thread nD τ).loc b)) (t : Fin cfg0.N) (y : S256x256.Idx) :
    (((cfg0.win 4).blk t).view.read (Elt Ideal) (Vv (Pipeline.arrRef spec0 4)) : S256x256.Idx → EReal) y = (Vv main_v55 : S256x256.Idx → EReal) y := by
  obtain ⟨-, -, -, -, e20, e21, e30, e31, e40, e41, e50, e51, e60, e61, e70, e71, -⟩ := idx_facts t
  rw [View.read_apply]
  refine congrArg (Vv main_v55) ?_
  funext a
  apply Fin.ext
  match a with
  | ⟨0, _⟩ => show win0_4.index t (0 : Fin 2) * 256 + 1 * (y 0).val = (y 0).val; rw [e40]; omega
  | ⟨1, _⟩ => show win0_4.index t (1 : Fin 2) * 256 + 1 * (y 1).val = (y 1).val; rw [e41]; omega

/-- The second layer's bias row. -/
theorem read_b2 (Vv : (b : Ref sig .tc) → Buf (Elt Ideal) ((c : Thread nD τ).loc b)) (t : Fin cfg0.N) (y : S1x256.Idx) :
    (((cfg0.win 5).blk t).view.read (Elt Ideal) (Vv (Pipeline.arrRef spec0 5)) : S1x256.Idx → EReal) y = (Vv main_v57 : S1x256.Idx → EReal) y := by
  obtain ⟨-, -, -, -, e20, e21, e30, e31, e40, e41, e50, e51, e60, e61, e70, e71, -⟩ := idx_facts t
  rw [View.read_apply]
  refine congrArg (Vv main_v57) ?_
  funext a
  apply Fin.ext
  match a with
  | ⟨0, _⟩ => show win0_5.index t (0 : Fin 2) * 1 + 1 * (y 0).val = (y 0).val; rw [e50]; omega
  | ⟨1, _⟩ => show win0_5.index t (1 : Fin 2) * 256 + 1 * (y 1).val = (y 1).val; rw [e51]; omega

/-- The projection row. -/
theorem read_wd (Vv : (b : Ref sig .tc) → Buf (Elt Ideal) ((c : Thread nD τ).loc b)) (t : Fin cfg0.N) (y : S1x256.Idx) :
    (((cfg0.win 6).blk t).view.read (Elt Ideal) (Vv (Pipeline.arrRef spec0 6)) : S1x256.Idx → EReal) y = (Vv main_arg8 : S1x256.Idx → EReal) y := by
  obtain ⟨-, -, -, -, e20, e21, e30, e31, e40, e41, e50, e51, e60, e61, e70, e71, -⟩ := idx_facts t
  rw [View.read_apply]
  refine congrArg (Vv main_arg8) ?_
  funext a
  apply Fin.ext
  match a with
  | ⟨0, _⟩ => show win0_6.index t (0 : Fin 2) * 1 + 1 * (y 0).val = (y 0).val; rw [e60]; omega
  | ⟨1, _⟩ => show win0_6.index t (1 : Fin 2) * 256 + 1 * (y 1).val = (y 1).val; rw [e61]; omega

/-- The scalar bias. -/
theorem read_bd (Vv : (b : Ref sig .tc) → Buf (Elt Ideal) ((c : Thread nD τ).loc b)) (t : Fin cfg0.N) (y : S1x1.Idx) :
    (((cfg0.win 7).blk t).view.read (Elt Ideal) (Vv (Pipeline.arrRef spec0 7)) : S1x1.Idx → EReal) y = (Vv main_v58 : S1x1.Idx → EReal) y := by
  obtain ⟨-, -, -, -, e20, e21, e30, e31, e40, e41, e50, e51, e60, e61, e70, e71, -⟩ := idx_facts t
  rw [View.read_apply]
  refine congrArg (Vv main_v58) ?_
  funext a
  apply Fin.ext
  match a with
  | ⟨0, _⟩ => show win0_7.index t (0 : Fin 2) * 1 + 1 * (y 0).val = (y 0).val; rw [e70]; omega
  | ⟨1, _⟩ => show win0_7.index t (1 : Fin 2) * 1 + 1 * (y 1).val = (y 1).val; rw [e71]; omega

/-- The result array as a function of the buffers' contents `Vv` at the region's entry: row `n` holds the specification's
    value of row `n` of the aggregated features and of the input, under the weight arrays as the region finds them
    (the dense layers' weights transposed). -/
def outArr (Vv : (b : Ref sig .tc) → Buf (Elt Ideal) ((c : Thread nD τ).loc b)) : S120000x1.Idx → EReal := fun i =>
  Cert.Mlp.rowOut (fun k => (Vv main_v51 : S120000x64.Idx → EReal) (ix2 (i 0) k))
    (fun k => (Vv main_arg0 : S120000x64.Idx → EReal) (ix2 (i 0) k))
    (fun j k => (Vv main_v53 : S64x256.Idx → EReal) (ix2 k j)) (fun j => (Vv main_v56 : S1x256.Idx → EReal) (ix2 (0 : Fin 1) j))
    (fun k j => (Vv main_v55 : S256x256.Idx → EReal) (ix2 j k)) (fun k => (Vv main_v57 : S1x256.Idx → EReal) (ix2 (0 : Fin 1) k))
    (fun k => (Vv main_arg8 : S1x256.Idx → EReal) (ix2 (0 : Fin 1) k)) ((Vv main_v58 : S1x1.Idx → EReal) (ix2 (0 : Fin 1) (0 : Fin 1)))

/-- What the body leaves in the output block at point `t`, at row `r`: the result function at row `6000 t + r`. -/
theorem out_blk (Vv : (b : Ref sig .tc) → Buf (Elt Ideal) ((c : Thread nD τ).loc b)) (t : Fin cfg0.N) (r : Fin 6000) (u : Fin 1)
    (n : Fin 120000) (hn : n.val = 6000 * t.val + r.val) :
    out0_8 (F := Ideal) (((cfg0.win 0).blk t).view.read (Elt Ideal) (Vv (Pipeline.arrRef spec0 0))) (((cfg0.win 1).blk t).view.read (Elt Ideal) (Vv (Pipeline.arrRef spec0 1))) (((cfg0.win 2).blk t).view.read (Elt Ideal) (Vv (Pipeline.arrRef spec0 2))) (((cfg0.win 3).blk t).view.read (Elt Ideal) (Vv (Pipeline.arrRef spec0 3))) (((cfg0.win 4).blk t).view.read (Elt Ideal) (Vv (Pipeline.arrRef spec0 4))) (((cfg0.win 5).blk t).view.read (Elt Ideal) (Vv (Pipeline.arrRef spec0 5))) (((cfg0.win 6).blk t).view.read (Elt Ideal) (Vv (Pipeline.arrRef spec0 6))) (((cfg0.win 7).blk t).view.read (Elt Ideal) (Vv (Pipeline.arrRef spec0 7))) (ix2 r u)
      = outArr Vv (ix2 n u) := by
  unfold out0_8
  rw [View.canon_unit_zero hz]
  simp only [View.ld_unit_zero (S := S6000x64) hz, View.ld_unit_zero (S := S64x256) hz, View.ld_unit_zero (S := S1x256) hz,
    View.ld_unit_zero (S := S256x256) hz, View.ld_unit_zero (S := S1x1) hz]
  refine (Pay.pay_apply _ _ _ _ _ _ _ _ r u).trans ?_
  unfold outArr
  simp only [read_agg Vv t r _ n hn, read_x Vv t r _ n hn, read_w1 Vv t, read_b1 Vv t, read_w2 Vv t, read_b2 Vv t, read_wd Vv t, read_bd Vv t]

end Cert.KernelIdeal.Blocks

end
-- ==== Proof.KFinal.lean ====
/-
  The kernel's result array after the run.

  Point `t` of the twenty writes back the 6000 × 1 block its body filled; that block holds, at row `r`, the result
  function's value at row `6000 t + r`, which is the row of the result array the block's row `r` sits at. Row `n` of the
  array is in the block of point `n / 6000` and every point writes back, so the twenty blocks cover the array, and the
  array ends holding the result function of the arrays the region was entered with, at every row.
-/
import proofs.«110510_j54503134986926_2_alg».proof.Proof.KBlocks

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ) (ρ : Dev nD → PrngReg)

variable {c : Dev nD}

/-- The body's output block at any block index `y`, against the result function at the array index `i` that `y` sits at:
    rows `6000 t + y 0`, the one column. -/
theorem out_at (Vv : (b : Ref sig .tc) → Buf (Elt Ideal) ((c : Thread nD τ).loc b)) (t : Fin cfg0.N) (y : S6000x1.Idx) (i : S120000x1.Idx)
    (h0 : (i 0).val = 6000 * t.val + (y 0).val) (h1 : (i 1).val = (y 1).val) :
    out0_8 (F := Ideal) (((cfg0.win 0).blk t).view.read (Elt Ideal) (Vv (Pipeline.arrRef spec0 0))) (((cfg0.win 1).blk t).view.read (Elt Ideal) (Vv (Pipeline.arrRef spec0 1))) (((cfg0.win 2).blk t).view.read (Elt Ideal) (Vv (Pipeline.arrRef spec0 2))) (((cfg0.win 3).blk t).view.read (Elt Ideal) (Vv (Pipeline.arrRef spec0 3))) (((cfg0.win 4).blk t).view.read (Elt Ideal) (Vv (Pipeline.arrRef spec0 4))) (((cfg0.win 5).blk t).view.read (Elt Ideal) (Vv (Pipeline.arrRef spec0 5))) (((cfg0.win 6).blk t).view.read (Elt Ideal) (Vv (Pipeline.arrRef spec0 6))) (((cfg0.win 7).blk t).view.read (Elt Ideal) (Vv (Pipeline.arrRef spec0 7))) y
      = outArr Vv i := by
  obtain ⟨r, u, rfl⟩ : ∃ (r : Fin 6000) (u : Fin 1), y = ix2 r u := ⟨y 0, y 1, eq_ix2 y⟩
  obtain ⟨n, u', rfl⟩ : ∃ (n : Fin 120000) (u' : Fin 1), i = ix2 n u' := ⟨i 0, i 1, eq_ix2 i⟩
  obtain rfl : u' = u := Fin.ext h1
  exact out_blk Vv t r u' n h0

/-- A function of the result array's index read through the output window's block at point `t` is the function at the array
    index the block index sits at. Stated for any function: the element types on the two sides of the view are the same,
    and saying so while the function is a variable keeps the function itself out of the comparison. -/
theorem read_out_blk (G : S120000x1.Idx → EReal) (t : Fin cfg0.N) (j : ((cfg0.win 8).xblock (grid0.coords t)).Idx) :
    ((cfg0.win 8).blk t).view.read (Elt Ideal) G j = G (((cfg0.win 8).blk t).view.emb j) := rfl

-- the result function is compared, never computed: its definition is a triple sum over the layers' coordinates
attribute [local irreducible] outArr

set_option maxHeartbeats 400000 in
/-- WHAT POINT `t` WRITES BACK is block `t` of the result function of the arrays as the region finds them: the body's
    output block at block index `j` is the result function at row `6000 t + j 0`, which is where the block sits. -/
theorem flushed_eq (c : Dev nD) (t : Fin cfg0.N) :
    (dats m 0 c).flushed 8 t = ((cfg0.win 8).blk t).view.read (Elt Ideal) (outArr (V m c)) := by
  obtain ⟨-, -, -, -, -, -, -, -, -, -, -, -, -, -, -, -, e80, e81⟩ := idx_facts t
  show (cfg0.win 8).cut (grid0.coords t) ((dats m 0 c).after 8 t) = _
  rw [after0_8]
  unfold iblk
  generalize V m c = Vv
  funext j
  rw [read_out_blk]
  refine out_at Vv t ((cfg0.win 8).xinj (grid0.coords t) j) (((cfg0.win 8).blk t).view.emb j) ?_ ?_
  · show win0_8.index t (0 : Fin 2) * 6000 + 1 * (j 0).val = 6000 * t.val + (j 0).val
    rw [e80]; omega
  · show win0_8.index t (1 : Fin 2) * 1 + 1 * (j 1).val = (j 1).val
    rw [e81]; omega

/-- Every row of the result array is in some point's block: row `n` in the block of point `n / 6000`, and every point
    writes its block back. -/
theorem cover (i : S120000x1.Idx) : ∃ t : Fin cfg0.N, (cfg0.win 8).flush t = true ∧ i ∈ ((cfg0.win 8).blk t).view.set := by
  have hN : cfg0.N = 20 := N_0
  have hi0 : (i 0).val < 120000 := (i 0).isLt
  have hi1 : (i 1).val < 1 := (i 1).isLt
  obtain ⟨t, ht⟩ : ∃ t : Fin cfg0.N, t.val = (i 0).val / 6000 := ⟨⟨(i 0).val / 6000, by rw [hN]; omega⟩, rfl⟩
  obtain ⟨-, -, -, -, -, -, -, -, -, -, -, -, -, -, -, -, e80, e81⟩ := idx_facts t
  refine ⟨t, flush0_8 t, ?_⟩
  show i ∈ ((View.whole main_v59).slice (win0_8.rect t)).set
  rw [View.set_slice_whole, Rect.mem_set_unit]
  intro a
  match a with
  | ⟨0, _⟩ =>
    show win0_8.index t (0 : Fin 2) * 6000 ≤ (i 0).val ∧ (i 0).val < win0_8.index t (0 : Fin 2) * 6000 + 6000
    rw [e80, ht]; omega
  | ⟨1, _⟩ =>
    show win0_8.index t (1 : Fin 2) * 1 ≤ (i 1).val ∧ (i 1).val < win0_8.index t (1 : Fin 2) * 1 + 1
    rw [e81]; omega

/-- THE RESULT ARRAY after the run: the result function of the arrays as the region finds them, at every row. -/
theorem final (c : Dev nD) : (dats m 0 c).arrAt 8 cfg0.N = outArr (V m c) :=
  (dats m 0 c).arrAt_eq_of_cover 8 (outArr (V m c)) (fun t _ => flushed_eq m c t) cover

end Cert.KernelIdeal.Blocks

end
-- ==== Proof.KHost.lean ====
/-
  The arrays the region is entered with, read at an index.

  Before the kernel runs, the host transposes each dense layer's weight matrix, writes each bias vector as a one-row
  matrix and the scalar bias as a 1 × 1 matrix.  A change of float format is the identity on the extended reals, so entry
  `(k, j)` of a transposed weight array is entry `(j, k)` of the argument, and a bias row reads the bias vector.
-/
import proofs.«110510_j54503134986926_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.HostSide

open Cert.KernelIdeal Cert.KernelIdeal.Gen

variable (m : (ℓ : Loc nD τ sig) → Buf (Elt Ideal) ℓ)

set_option maxHeartbeats 1000000 in
/-- The first layer's weights as the region finds them: the argument transposed (the change of format is the identity). -/
theorem w1_eq (c : Dev nD) : (V m c main_v53 : S64x256.Idx → EReal)
    = truncf (F := Ideal) .bf16 (transpose S64x256 [1, 0] (m ((c : Thread nD τ).loc main_arg4) : S256x64.Idx → EReal) transposes_S256x64_S64x256_1_0) bitsLt_bf16_f32 := by
  dsimp only [V, V0]
  simp only [hostOps0, hostOps0_1, hostOps0_2, List.flatten_cons, List.flatten_nil, List.append_nil, List.cons_append, List.nil_append]
  after_results_simp

set_option maxHeartbeats 1000000 in
/-- The second layer's weights as the region finds them: the argument transposed. -/
theorem w2_eq (c : Dev nD) : (V m c main_v55 : S256x256.Idx → EReal)
    = truncf (F := Ideal) .bf16 (transpose S256x256 [1, 0] (m ((c : Thread nD τ).loc main_arg6) : S256x256.Idx → EReal) transposes_S256x256_S256x256_1_0) bitsLt_bf16_f32 := by
  dsimp only [V, V0]
  simp only [hostOps0, hostOps0_1, hostOps0_2, List.flatten_cons, List.flatten_nil, List.append_nil, List.cons_append, List.nil_append]
  after_results_simp

set_option maxHeartbeats 1000000 in
/-- The first bias as a one-row matrix. -/
theorem b1_eq (c : Dev nD) : (V m c main_v56 : S1x256.Idx → EReal)
    = shapeCast S1x256 (m ((c : Thread nD τ).loc main_arg5) : S256.Idx → EReal) shapeCasts_S256_S1x256 := by
  dsimp only [V, V0]
  simp only [hostOps0, hostOps0_1, hostOps0_2, List.flatten_cons, List.flatten_nil, List.append_nil, List.cons_append, List.nil_append]
  after_results_simp
  rfl

set_option maxHeartbeats 1000000 in
/-- The second bias as a one-row matrix. -/
theorem b2_eq (c : Dev nD) : (V m c main_v57 : S1x256.Idx → EReal)
    = shapeCast S1x256 (m ((c : Thread nD τ).loc main_arg7) : S256.Idx → EReal) shapeCasts_S256_S1x256 := by
  dsimp only [V, V0]
  simp only [hostOps0, hostOps0_1, hostOps0_2, List.flatten_cons, List.flatten_nil, List.append_nil, List.cons_append, List.nil_append]
  after_results_simp
  rfl

set_option maxHeartbeats 1000000 in
/-- The scalar bias as a 1 × 1 matrix. -/
theorem bd_eq (c : Dev nD) : (V m c main_v58 : S1x1.Idx → EReal)
    = shapeCast S1x1 (m ((c : Thread nD τ).loc main_arg9) : S1.Idx → EReal) shapeCasts_S1_S1x1 := by
  dsimp only [V, V0]
  simp only [hostOps0, hostOps0_1, hostOps0_2, List.flatten_cons, List.flatten_nil, List.append_nil, List.cons_append, List.nil_append]
  after_results_simp
  rfl

/-- Entry `(k, j)` of the first layer's transposed weights is entry `(j, k)` of the argument. -/
theorem w1_apply (c : Dev nD) (k : Fin 64) (j : Fin 256) :
    (V m c main_v53 : S64x256.Idx → EReal) (ix2 k j) = (m ((c : Thread nD τ).loc main_arg4) : S256x64.Idx → EReal) (ix2 j k) := by
  rw [w1_eq m c, truncf_apply]
  exact transpose_ix2_apply _ _ k j

/-- Entry `(j, k)` of the second layer's transposed weights is entry `(k, j)` of the argument. -/
theorem w2_apply (c : Dev nD) (j k : Fin 256) :
    (V m c main_v55 : S256x256.Idx → EReal) (ix2 j k) = (m ((c : Thread nD τ).loc main_arg6) : S256x256.Idx → EReal) (ix2 k j) := by
  rw [w2_eq m c, truncf_apply]
  exact transpose_ix2_apply _ _ j k

/-- The first bias row at column `j` is the bias vector at `j`. -/
theorem b1_apply (c : Dev nD) (j : Fin 256) :
    (V m c main_v56 : S1x256.Idx → EReal) (ix2 (0 : Fin 1) j) = (m ((c : Thread nD τ).loc main_arg5) : S256.Idx → EReal) (ix1 j) := by
  rw [b1_eq m c]
  exact shapeCast_a_1a_apply _ _ 0 j

/-- The second bias row at column `k` is the bias vector at `k`. -/
theorem b2_apply (c : Dev nD) (k : Fin 256) :
    (V m c main_v57 : S1x256.Idx → EReal) (ix2 (0 : Fin 1) k) = (m ((c : Thread nD τ).loc main_arg7) : S256.Idx → EReal) (ix1 k) := by
  rw [b2_eq m c]
  exact shapeCast_a_1a_apply _ _ 0 k

/-- The 1 × 1 bias matrix holds the bias vector's one entry. -/
theorem bd_apply (c : Dev nD) :
    (V m c main_v58 : S1x1.Idx → EReal) (ix2 (0 : Fin 1) (0 : Fin 1)) = (m ((c : Thread nD τ).loc main_arg9) : S1.Idx → EReal) (ix1 (0 : Fin 1)) := by
  rw [bd_eq m c]
  exact shapeCast_a_1a_apply _ _ 0 0

end Cert.KernelIdeal.HostSide

end
-- ==== Proof.KTail.lean ====
/-
  The kernel program's result is the node-wise perceptron of the aggregated features.

  The region leaves, in its 120000 × 1 result array, the specification's value of each row of the arrays it was entered
  with; one host operation follows, regrouping that column into 20000 groups of 6. The dense layers' weights reach the
  region transposed and the biases as one-row matrices, so row `n`'s value is the specification's output of node `n` from
  the program's own arguments; a regrouping keeps the row-major order, so position `(b, s, 0)` of the final result is row
  `6 b + s`. No operation after the region writes an argument, and the region returns the arrays it only reads as it found
  them.
-/
import proofs.«110510_j54503134986926_2_alg».proof.Proof.KBlocks
import proofs.«110510_j54503134986926_2_alg».proof.Proof.KHost
import proofs.«110510_j54503134986926_2_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Tail

open Cert.KernelIdeal Cert.KernelIdeal.Gen

/-- The regrouping of a 120000 × 1 column into 20000 groups of 6 reads, at `(b, s, 0)`, row `6 b + s`: both positions
    are the same in row-major order. -/
theorem regroup_apply (y : S120000x1.Idx → EReal) (h : S120000x1.ShapeCasts S20000x6x1) (b : Fin 20000) (s : Fin 6) (u : Fin 1) :
    shapeCast S20000x6x1 y h (ix3 b s u) = y (ix2 (Cert.Mlp.node b s) (0 : Fin 1)) :=
  shapeCast_apply y h _ _ (by
    have hu : u.val = 0 := by omega
    rw [Shape.rowMajor_val_two, Shape.rowMajor_val_three]
    show (b.val * 6 + s.val) * 1 + 0 = (b.val * 6 + s.val) * 1 + u.val
    rw [hu])

set_option maxHeartbeats 400000 in
/-- The region's result function at row `n`, from any contents `Vv` of the buffers at its entry whose weight and bias
    arrays are the given arguments transposed, respectively laid out as one row: node `n`'s output from those arguments. -/
theorem outArr_eq_of {c : Dev nD} (Vv : (b : Ref sig .tc) → Buf (Elt Ideal) ((c : Thread nD τ).loc b))
    (x : S120000x64.Idx → EReal) (W1 : S256x64.Idx → EReal) (b1 : S256.Idx → EReal) (W2 : S256x256.Idx → EReal)
    (b2 : S256.Idx → EReal) (Wd : S1x256.Idx → EReal) (bd : S1.Idx → EReal)
    (hx : (Vv main_arg0 : S120000x64.Idx → EReal) = x)
    (h1 : ∀ (k : Fin 64) (j : Fin 256), (Vv main_v53 : S64x256.Idx → EReal) (ix2 k j) = W1 (ix2 j k))
    (hb1 : ∀ j : Fin 256, (Vv main_v56 : S1x256.Idx → EReal) (ix2 (0 : Fin 1) j) = b1 (ix1 j))
    (h2 : ∀ j k : Fin 256, (Vv main_v55 : S256x256.Idx → EReal) (ix2 j k) = W2 (ix2 k j))
    (hb2 : ∀ k : Fin 256, (Vv main_v57 : S1x256.Idx → EReal) (ix2 (0 : Fin 1) k) = b2 (ix1 k))
    (hd : (Vv main_arg8 : S1x256.Idx → EReal) = Wd)
    (hbd : (Vv main_v58 : S1x1.Idx → EReal) (ix2 (0 : Fin 1) (0 : Fin 1)) = bd (ix1 (0 : Fin 1)))
    (n : Fin 120000) (u : Fin 1) :
    Blocks.outArr Vv (ix2 n u) = Cert.Mlp.nodeOut (Vv main_v51) x W1 b1 W2 b2 Wd bd n := by
  subst hx
  subst hd
  unfold Blocks.outArr Cert.Mlp.nodeOut
  have e1 : (fun (j : Fin 256) (k : Fin 64) => (Vv main_v53 : S64x256.Idx → EReal) (ix2 k j)) = fun j k => W1 (ix2 j k) :=
    funext fun j => funext fun k => h1 k j
  have e2 : (fun j : Fin 256 => (Vv main_v56 : S1x256.Idx → EReal) (ix2 (0 : Fin 1) j)) = fun j => b1 (ix1 j) := funext hb1
  have e3 : (fun (k j : Fin 256) => (Vv main_v55 : S256x256.Idx → EReal) (ix2 j k)) = fun k j => W2 (ix2 k j) :=
    funext fun k => funext fun j => h2 j k
  have e4 : (fun k : Fin 256 => (Vv main_v57 : S1x256.Idx → EReal) (ix2 (0 : Fin 1) k)) = fun k => b2 (ix1 k) := funext hb2
  rw [e1, e2, e3, e4, hbd]

set_option maxHeartbeats 400000 in
/-- The final result after the one host operation that follows the region, from any contents `Wv` at the region's exit
    whose result array is the region's result function of the entry contents `Vv`: the specification's function. -/
theorem regrouped_eq_of {c : Dev nD} (Wv : Valuation τ sig (Elt Ideal))
    (Vv : (b : Ref sig .tc) → Buf (Elt Ideal) ((c : Thread nD τ).loc b))
    (x : S120000x64.Idx → EReal) (W1 : S256x64.Idx → EReal) (b1 : S256.Idx → EReal) (W2 : S256x256.Idx → EReal)
    (b2 : S256.Idx → EReal) (Wd : S1x256.Idx → EReal) (bd : S1.Idx → EReal)
    (hx : (Vv main_arg0 : S120000x64.Idx → EReal) = x)
    (h1 : ∀ (k : Fin 64) (j : Fin 256), (Vv main_v53 : S64x256.Idx → EReal) (ix2 k j) = W1 (ix2 j k))
    (hb1 : ∀ j : Fin 256, (Vv main_v56 : S1x256.Idx → EReal) (ix2 (0 : Fin 1) j) = b1 (ix1 j))
    (h2 : ∀ j k : Fin 256, (Vv main_v55 : S256x256.Idx → EReal) (ix2 j k) = W2 (ix2 k j))
    (hb2 : ∀ k : Fin 256, (Vv main_v57 : S1x256.Idx → EReal) (ix2 (0 : Fin 1) k) = b2 (ix1 k))
    (hd : (Vv main_arg8 : S1x256.Idx → EReal) = Wd)
    (hbd : (Vv main_v58 : S1x1.Idx → EReal) (ix2 (0 : Fin 1) (0 : Fin 1)) = bd (ix1 (0 : Fin 1)))
    (hW : (Wv (Proc.devRef .tc main_v59) : S120000x1.Idx → EReal) = Blocks.outArr Vv) :
    (after (hostOps1 (F := Ideal)) Wv (Proc.devRef .tc main_v60) : S20000x6x1.Idx → EReal)
      = Cert.Mlp.G (Vv main_v51) x W1 b1 W2 b2 Wd bd := by
  have e : (after (hostOps1 (F := Ideal)) Wv (Proc.devRef .tc main_v60) : S20000x6x1.Idx → EReal)
      = shapeCast S20000x6x1 (Wv (Proc.devRef .tc main_v59) : S120000x1.Idx → EReal) shapeCasts_S120000x1_S20000x6x1 := by
    after_results
    rfl
  rw [e, hW]
  funext i
  obtain ⟨b, s, u, rfl⟩ : ∃ (b : Fin 20000) (s : Fin 6) (u : Fin 1), i = ix3 b s u := ⟨i 0, i 1, i 2, eq_ix3 i⟩
  rw [Cert.Mlp.G_apply, regroup_apply]
  exact outArr_eq_of Vv x W1 b1 W2 b2 Wd bd hx h1 hb1 h2 hb2 hd hbd (Cert.Mlp.node b s) 0

variable (m : (ℓ : Loc nD τ sig) → Buf (Elt Ideal) ℓ) (ρ : Dev nD → PrngReg)

set_option maxHeartbeats 400000 in
/-- The final result after the lines that follow the region: the specification's function of the aggregated features as
    the region finds them and of the arguments as launched. -/
theorem value (c : Dev nD) (hfinal : (dats m 0 c).arrAt 8 cfg0.N = Blocks.outArr (V m c)) :
    Pipeline.afterTail₀ cfgs (dats m) 0 (V0 m) [hostOps1] c main_v60
      = Cert.Mlp.G (V m c main_v51) (m ((c.tc : Thread nD τ).loc main_arg0)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) :=
  regrouped_eq_of (c := c) (Pipeline.withArrays spec0 c (V0 m c) fun w => (dats m 0 c).arrAt w cfg0.N) (V m c)
    (m ((c.tc : Thread nD τ).loc main_arg0)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (V_main_arg0 m c) (HostSide.w1_apply m c) (HostSide.b1_apply m c) (HostSide.w2_apply m c) (HostSide.b2_apply m c)
    (V_main_arg8 m c) (HostSide.bd_apply m c)
    ((Pipeline.withArrays_arr spec0 launch0.win.arr_inj c (V0 m c) (fun w => (dats m 0 c).arrAt w cfg0.N) 8).trans hfinal)

/-- On every device, from any memory with zero counters: every weakly fair execution of the kernel program terminates with
    the specification's function of the aggregated features and the arguments in the result buffer, and with the
    arguments as they began. -/
theorem run (hfinal : ∀ c : Dev nD, (dats m 0 c).arrAt 8 cfg0.N = Blocks.outArr (V m c)) :
    θ_run (defs (F := Ideal)) (onTc (τ := τ) (main (F := Ideal))) ⟨m, fun _ => 0, ρ⟩ fun r => ∀ c : Dev nD,
      r.2.mem ((c.tc : Thread nD τ).loc main_v60)
          = Cert.Mlp.G (V m c main_v51) (m ((c.tc : Thread nD τ).loc main_arg0)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).2 main_v60 (Pipeline.mem_restRefs_of main_v60 (by decide) (by decide))).trans (value m c (hfinal c)),
      ((h c).1 1).trans ((((dats m) 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 6).trans ((((dats m) 0 c).arrAt_in 6 rfl _).trans ((A_eq m c 6).trans (V_main_arg8 m c))),
      (((h c).2 main_arg9 (Pipeline.mem_restRefs_of main_arg9 (by decide) (by decide))).trans (W_main_arg9 m (dats m) c))⟩)
    (run_main m ρ)

end Cert.KernelIdeal.Tail

end
-- ==== Proof.RefOps.lean ====
/- The reference program's @main as two literal lists of its 98 host operations, in program order, the operations of a called
   function written where the call stands, over that call's own buffers: `opsPre`, the 67 operations up to the aggregated
   features (the graph convolution: degrees, normalisation, the gathered and scattered rows, the bias); `opsPost`, the other 31
   (the clamp and residual, the regrouping into 20000 x 6 nodes, the three dense layers with their leaky rectifiers). -/
import proofs.«110510_j54503134986926_2_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem

variable {F : FTy → Type} [FloatOps F]

/-- The operations up to and including the one that writes the aggregated features, in order. -/
abbrev opsPre : List (HloOp τ sig (Elt F)) :=
  [ StableHlo.nullary main_v0 (iotaInDim S120000 32 0),
    StableHlo.unary main_arg1 main_v1 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v1 main_v2 rfl shapeCasts_S1x1200000_S1200000,
    StableHlo.binary main_v2 main_v0 main_v3 ((fun a b => concatenate S1320000 0 [⟨S1200000, a⟩, ⟨S120000, b⟩] concatenates_S1200000_S120000_S1320000_d0) : (⟨S1200000, .i32⟩ : BufTy).Contents (Elt F) → (⟨S120000, .i32⟩ : BufTy).Contents (Elt F) → (⟨S1320000, .i32⟩ : BufTy).Contents (Elt F)),
    StableHlo.unary main_arg1 main_v4 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v4 main_v5 rfl shapeCasts_S1x1200000_S1200000,
    StableHlo.binary main_v5 main_v0 main_v6 ((fun a b => concatenate S1320000 0 [⟨S1200000, a⟩, ⟨S120000, b⟩] concatenates_S1200000_S120000_S1320000_d0) : (⟨S1200000, .i32⟩ : BufTy).Contents (Elt F) → (⟨S120000, .i32⟩ : BufTy).Contents (Elt F) → (⟨S1320000, .i32⟩ : BufTy).Contents (Elt F)),
    StableHlo.nullary main_cst (constant S_ .f32 0x00000000#32),
    StableHlo.unary main_cst main_v7 (broadcastInDim S120000 ![] bcast_S_S120000 : (⟨S_, .f32⟩ : BufTy).Contents (Elt F) → (⟨S120000, .f32⟩ : BufTy).Contents (Elt F)),
    StableHlo.nullary main_c (constantI S_ 32 0#32),
    StableHlo.unary main_c main_v8 (broadcastInDim S1320000 ![] bcast_S_S1320000 : (⟨S_, .i32⟩ : BufTy).Contents (Elt F) → (⟨S1320000, .i32⟩ : BufTy).Contents (Elt F)),
    StableHlo.binary main_v6 main_v8 main_v9 (cmpi .slt : (⟨S1320000, .i32⟩ : BufTy).Contents (Elt F) → (⟨S1320000, .i32⟩ : BufTy).Contents (Elt F) → (⟨S1320000, .i1⟩ : BufTy).Contents (Elt F)),
    StableHlo.nullary main_c_0 (constantI S_ 32 120000#32),
    StableHlo.unary main_c_0 main_v10 (broadcastInDim S1320000 ![] bcast_S_S1320000 : (⟨S_, .i32⟩ : BufTy).Contents (Elt F) → (⟨S1320000, .i32⟩ : BufTy).Contents (Elt F)),
    StableHlo.binary main_v6 main_v10 main_v11 (addi : (⟨S1320000, .i32⟩ : BufTy).Contents (Elt F) → (⟨S1320000, .i32⟩ : BufTy).Contents (Elt F) → (⟨S1320000, .i32⟩ : BufTy).Contents (Elt F)),
    StableHlo.ternary main_v9 main_v11 main_v6 main_v12 (select : (⟨S1320000, .i1⟩ : BufTy).Contents (Elt F) → (⟨S1320000, .i32⟩ : BufTy).Contents (Elt F) → (⟨S1320000, .i32⟩ : BufTy).Contents (Elt F) → (⟨S1320000, .i32⟩ : BufTy).Contents (Elt F)),
    StableHlo.unary main_v12 main_v13 (broadcastInDim S1320000x1 ![0] bcast_S1320000_S1320000x1_0 : (⟨S1320000, .i32⟩ : BufTy).Contents (Elt F) → (⟨S1320000x1, .i32⟩ : BufTy).Contents (Elt F)),
    StableHlo.nullary main_cst_1 (constant S_ .f32 0x3F800000#32),
    StableHlo.unary main_cst_1 main_v14 (broadcastInDim S1320000 ![] bcast_S_S1320000 : (⟨S_, .f32⟩ : BufTy).Contents (Elt F) → (⟨S1320000, .f32⟩ : BufTy).Contents (Elt F)),
    StableHlo.ternary main_v7 main_v13 main_v14 main_v15 ((fun x i u => Host.scatterAdd scatter_S120000_S1320000x1_S1320000_n_0_0_1 x i u) : (⟨S120000, .f32⟩ : BufTy).Contents (Elt F) → (⟨S1320000x1, .i32⟩ : BufTy).Contents (Elt F) → (⟨S1320000, .f32⟩ : BufTy).Contents (Elt F) → (⟨S120000, .f32⟩ : BufTy).Contents (Elt F)),
    StableHlo.nullary main_cst_2 (constant S_ .f32 0x00000000#32),
    StableHlo.unary main_cst_2 main_v16 (broadcastInDim S120000 ![] bcast_S_S120000 : (⟨S_, .f32⟩ : BufTy).Contents (Elt F) → (⟨S120000, .f32⟩ : BufTy).Contents (Elt F)),
    StableHlo.binary main_v15 main_v16 main_v17 (cmpf .ogt : (⟨S120000, .f32⟩ : BufTy).Contents (Elt F) → (⟨S120000, .f32⟩ : BufTy).Contents (Elt F) → (⟨S120000, .i1⟩ : BufTy).Contents (Elt F)),
    StableHlo.unary main_v15 main_v18 (Host.rsqrt : (⟨S120000, .f32⟩ : BufTy).Contents (Elt F) → (⟨S120000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S120000, .f32⟩) (broadcastInDim S120000 ![] bcast_S_S120000),
    StableHlo.TRef.ternary (.of main_v17 : StableHlo.TRef sig ⟨S120000, .i1⟩) (.of main_v18 : StableHlo.TRef sig ⟨S120000, .f32⟩) (.of main_call0_v1 : StableHlo.TRef sig ⟨S120000, .f32⟩) (.of main_v19 : StableHlo.TRef sig ⟨S120000, .f32⟩) select,
    StableHlo.nullary main_c_4 (constantI S_ 32 0#32),
    StableHlo.unary main_c_4 main_v20 (broadcastInDim S1320000 ![] bcast_S_S1320000 : (⟨S_, .i32⟩ : BufTy).Contents (Elt F) → (⟨S1320000, .i32⟩ : BufTy).Contents (Elt F)),
    StableHlo.binary main_v3 main_v20 main_v21 (cmpi .slt : (⟨S1320000, .i32⟩ : BufTy).Contents (Elt F) → (⟨S1320000, .i32⟩ : BufTy).Contents (Elt F) → (⟨S1320000, .i1⟩ : BufTy).Contents (Elt F)),
    StableHlo.nullary main_c_5 (constantI S_ 32 120000#32),
    StableHlo.unary main_c_5 main_v22 (broadcastInDim S1320000 ![] bcast_S_S1320000 : (⟨S_, .i32⟩ : BufTy).Contents (Elt F) → (⟨S1320000, .i32⟩ : BufTy).Contents (Elt F)),
    StableHlo.binary main_v3 main_v22 main_v23 (addi : (⟨S1320000, .i32⟩ : BufTy).Contents (Elt F) → (⟨S1320000, .i32⟩ : BufTy).Contents (Elt F) → (⟨S1320000, .i32⟩ : BufTy).Contents (Elt F)),
    StableHlo.ternary main_v21 main_v23 main_v3 main_v24 (select : (⟨S1320000, .i1⟩ : BufTy).Contents (Elt F) → (⟨S1320000, .i32⟩ : BufTy).Contents (Elt F) → (⟨S1320000, .i32⟩ : BufTy).Contents (Elt F) → (⟨S1320000, .i32⟩ : BufTy).Contents (Elt F)),
    StableHlo.unary main_v24 main_v25 (broadcastInDim S1320000x1 ![0] bcast_S1320000_S1320000x1_0 : (⟨S1320000, .i32⟩ : BufTy).Contents (Elt F) → (⟨S1320000x1, .i32⟩ : BufTy).Contents (Elt F)),
    StableHlo.binary main_v19 main_v25 main_v26 ((fun x i => Host.gather gather_S120000_S1320000x1_S1320000_n_0_n_n_0_1_1 x i) : (⟨S120000, .f32⟩ : BufTy).Contents (Elt F) → (⟨S1320000x1, .i32⟩ : BufTy).Contents (Elt F) → (⟨S1320000, .f32⟩ : BufTy).Contents (Elt F)),
    StableHlo.nullary main_c_6 (constantI S_ 32 0#32),
    StableHlo.unary main_c_6 main_v27 (broadcastInDim S1320000 ![] bcast_S_S1320000 : (⟨S_, .i32⟩ : BufTy).Contents (Elt F) → (⟨S1320000, .i32⟩ : BufTy).Contents (Elt F)),
    StableHlo.binary main_v6 main_v27 main_v28 (cmpi .slt : (⟨S1320000, .i32⟩ : BufTy).Contents (Elt F) → (⟨S1320000, .i32⟩ : BufTy).Contents (Elt F) → (⟨S1320000, .i1⟩ : BufTy).Contents (Elt F)),
    StableHlo.nullary main_c_7 (constantI S_ 32 120000#32),
    StableHlo.unary main_c_7 main_v29 (broadcastInDim S1320000 ![] bcast_S_S1320000 : (⟨S_, .i32⟩ : BufTy).Contents (Elt F) → (⟨S1320000, .i32⟩ : BufTy).Contents (Elt F)),
    StableHlo.binary main_v6 main_v29 main_v30 (addi : (⟨S1320000, .i32⟩ : BufTy).Contents (Elt F) → (⟨S1320000, .i32⟩ : BufTy).Contents (Elt F) → (⟨S1320000, .i32⟩ : BufTy).Contents (Elt F)),
    StableHlo.ternary main_v28 main_v30 main_v6 main_v31 (select : (⟨S1320000, .i1⟩ : BufTy).Contents (Elt F) → (⟨S1320000, .i32⟩ : BufTy).Contents (Elt F) → (⟨S1320000, .i32⟩ : BufTy).Contents (Elt F) → (⟨S1320000, .i32⟩ : BufTy).Contents (Elt F)),
    StableHlo.unary main_v31 main_v32 (broadcastInDim S1320000x1 ![0] bcast_S1320000_S1320000x1_0 : (⟨S1320000, .i32⟩ : BufTy).Contents (Elt F) → (⟨S1320000x1, .i32⟩ : BufTy).Contents (Elt F)),
    StableHlo.binary main_v19 main_v32 main_v33 ((fun x i => Host.gather gather_S120000_S1320000x1_S1320000_n_0_n_n_0_1_1 x i) : (⟨S120000, .f32⟩ : BufTy).Contents (Elt F) → (⟨S1320000x1, .i32⟩ : BufTy).Contents (Elt F) → (⟨S1320000, .f32⟩ : BufTy).Contents (Elt F)),
    StableHlo.binary main_v26 main_v33 main_v34 (mulf : (⟨S1320000, .f32⟩ : BufTy).Contents (Elt F) → (⟨S1320000, .f32⟩ : BufTy).Contents (Elt F) → (⟨S1320000, .f32⟩ : BufTy).Contents (Elt F)),
    StableHlo.binary main_arg0 main_arg2 main_v35 ((fun l r => Host.dotGeneral dot_S120000x64_S64x64_S120000x64_1_0_0_1_n_n none l r) : (⟨S120000x64, .f32⟩ : BufTy).Contents (Elt F) → (⟨S64x64, .f32⟩ : BufTy).Contents (Elt F) → (⟨S120000x64, .f32⟩ : BufTy).Contents (Elt F)),
    StableHlo.nullary main_c_8 (constantI S_ 32 0#32),
    StableHlo.unary main_c_8 main_v36 (broadcastInDim S1320000 ![] bcast_S_S1320000 : (⟨S_, .i32⟩ : BufTy).Contents (Elt F) → (⟨S1320000, .i32⟩ : BufTy).Contents (Elt F)),
    StableHlo.binary main_v3 main_v36 main_v37 (cmpi .slt : (⟨S1320000, .i32⟩ : BufTy).Contents (Elt F) → (⟨S1320000, .i32⟩ : BufTy).Contents (Elt F) → (⟨S1320000, .i1⟩ : BufTy).Contents (Elt F)),
    StableHlo.nullary main_c_9 (constantI S_ 32 120000#32),
    StableHlo.unary main_c_9 main_v38 (broadcastInDim S1320000 ![] bcast_S_S1320000 : (⟨S_, .i32⟩ : BufTy).Contents (Elt F) → (⟨S1320000, .i32⟩ : BufTy).Contents (Elt F)),
    StableHlo.binary main_v3 main_v38 main_v39 (addi : (⟨S1320000, .i32⟩ : BufTy).Contents (Elt F) → (⟨S1320000, .i32⟩ : BufTy).Contents (Elt F) → (⟨S1320000, .i32⟩ : BufTy).Contents (Elt F)),
    StableHlo.ternary main_v37 main_v39 main_v3 main_v40 (select : (⟨S1320000, .i1⟩ : BufTy).Contents (Elt F) → (⟨S1320000, .i32⟩ : BufTy).Contents (Elt F) → (⟨S1320000, .i32⟩ : BufTy).Contents (Elt F) → (⟨S1320000, .i32⟩ : BufTy).Contents (Elt F)),
    StableHlo.unary main_v40 main_v41 (broadcastInDim S1320000x1 ![0] bcast_S1320000_S1320000x1_0 : (⟨S1320000, .i32⟩ : BufTy).Contents (Elt F) → (⟨S1320000x1, .i32⟩ : BufTy).Contents (Elt F)),
    StableHlo.binary main_v35 main_v41 main_v42 ((fun x i => Host.gather gather_S120000x64_S1320000x1_S1320000x64_1_0_n_n_0_1_164 x i) : (⟨S120000x64, .f32⟩ : BufTy).Contents (Elt F) → (⟨S1320000x1, .i32⟩ : BufTy).Contents (Elt F) → (⟨S1320000x64, .f32⟩ : BufTy).Contents (Elt F)),
    StableHlo.unary main_v34 main_v43 (broadcastInDim S1320000x1 ![0] bcast_S1320000_S1320000x1_0 : (⟨S1320000, .f32⟩ : BufTy).Contents (Elt F) → (⟨S1320000x1, .f32⟩ : BufTy).Contents (Elt F)),
    StableHlo.unary main_v43 main_v44 (broadcastInDim S1320000x64 ![0, 1] bcast_S1320000x1_S1320000x64_0_1 : (⟨S1320000x1, .f32⟩ : BufTy).Contents (Elt F) → (⟨S1320000x64, .f32⟩ : BufTy).Contents (Elt F)),
    StableHlo.binary main_v42 main_v44 main_v45 (mulf : (⟨S1320000x64, .f32⟩ : BufTy).Contents (Elt F) → (⟨S1320000x64, .f32⟩ : BufTy).Contents (Elt F) → (⟨S1320000x64, .f32⟩ : BufTy).Contents (Elt F)),
    StableHlo.nullary main_cst_10 (constant S_ .f32 0x00000000#32),
    StableHlo.unary main_cst_10 main_v46 (broadcastInDim S120000x64 ![] bcast_S_S120000x64 : (⟨S_, .f32⟩ : BufTy).Contents (Elt F) → (⟨S120000x64, .f32⟩ : BufTy).Contents (Elt F)),
    StableHlo.unary main_v6 main_v47 (broadcastInDim S1320000x1 ![0] bcast_S1320000_S1320000x1_0 : (⟨S1320000, .i32⟩ : BufTy).Contents (Elt F) → (⟨S1320000x1, .i32⟩ : BufTy).Contents (Elt F)),
    StableHlo.ternary main_v46 main_v47 main_v45 main_v48 ((fun x i u => Host.scatterAdd scatter_S120000x64_S1320000x1_S1320000x64_1_0_0_1 x i u) : (⟨S120000x64, .f32⟩ : BufTy).Contents (Elt F) → (⟨S1320000x1, .i32⟩ : BufTy).Contents (Elt F) → (⟨S1320000x64, .f32⟩ : BufTy).Contents (Elt F) → (⟨S120000x64, .f32⟩ : BufTy).Contents (Elt F)),
    StableHlo.unary main_arg3 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S120000x64 ![0, 1] bcast_S1x64_S120000x64_0_1 : (⟨S1x64, .f32⟩ : BufTy).Contents (Elt F) → (⟨S120000x64, .f32⟩ : BufTy).Contents (Elt F)),
    StableHlo.binary main_v48 main_v50 main_v51 (addf : (⟨S120000x64, .f32⟩ : BufTy).Contents (Elt F) → (⟨S120000x64, .f32⟩ : BufTy).Contents (Elt F) → (⟨S120000x64, .f32⟩ : BufTy).Contents (Elt F)) ]
/-- Each of them touches TensorCore references only. -/
theorem opsPre_sub : (opsPre : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- The operations after it, in order. -/
abbrev opsPost : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S120000x64, .f32⟩) (broadcastInDim S120000x64 ![] bcast_S_S120000x64),
    StableHlo.TRef.binary (.of main_v51 : StableHlo.TRef sig ⟨S120000x64, .f32⟩) (.of main_call1_v0 : StableHlo.TRef sig ⟨S120000x64, .f32⟩) (.of main_v52 : StableHlo.TRef sig ⟨S120000x64, .f32⟩) maximumf,
    StableHlo.binary main_v52 main_arg0 main_v53 (addf : (⟨S120000x64, .f32⟩ : BufTy).Contents (Elt F) → (⟨S120000x64, .f32⟩ : BufTy).Contents (Elt F) → (⟨S120000x64, .f32⟩ : BufTy).Contents (Elt F)),
    StableHlo.reshape main_v53 main_v54 rfl shapeCasts_S120000x64_S20000x6x64,
    StableHlo.binary main_v54 main_arg4 main_v55 ((fun l r => Host.dotGeneral dot_S20000x6x64_S256x64_S20000x6x256_2_1_01_0_n_n none l r) : (⟨S20000x6x64, .f32⟩ : BufTy).Contents (Elt F) → (⟨S256x64, .f32⟩ : BufTy).Contents (Elt F) → (⟨S20000x6x256, .f32⟩ : BufTy).Contents (Elt F)),
    StableHlo.unary main_arg5 main_v56 (broadcastInDim S1x1x256 ![2] bcast_S256_S1x1x256_2 : (⟨S256, .f32⟩ : BufTy).Contents (Elt F) → (⟨S1x1x256, .f32⟩ : BufTy).Contents (Elt F)),
    StableHlo.unary main_v56 main_v57 (broadcastInDim S20000x6x256 ![0, 1, 2] bcast_S1x1x256_S20000x6x256_0_1_2 : (⟨S1x1x256, .f32⟩ : BufTy).Contents (Elt F) → (⟨S20000x6x256, .f32⟩ : BufTy).Contents (Elt F)),
    StableHlo.binary main_v55 main_v57 main_v58 (addf : (⟨S20000x6x256, .f32⟩ : BufTy).Contents (Elt F) → (⟨S20000x6x256, .f32⟩ : BufTy).Contents (Elt F) → (⟨S20000x6x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S20000x6x256, .f32⟩) (broadcastInDim S20000x6x256 ![] bcast_S_S20000x6x256),
    StableHlo.TRef.binary (.of main_v58 : StableHlo.TRef sig ⟨S20000x6x256, .f32⟩) (.of main_call2_v0 : StableHlo.TRef sig ⟨S20000x6x256, .f32⟩) (.of main_call2_v1 : StableHlo.TRef sig ⟨S20000x6x256, .i1⟩) (cmpf .oge),
    StableHlo.TRef.nullary (.of main_call2_cst_0 : StableHlo.TRef sig ⟨S_, .f32⟩) (constant S_ .f32 0x3C23D70A#32),
    StableHlo.TRef.unary (.of main_call2_cst_0 : StableHlo.TRef sig ⟨S_, .f32⟩) (.of main_call2_v2 : StableHlo.TRef sig ⟨S20000x6x256, .f32⟩) (broadcastInDim S20000x6x256 ![] bcast_S_S20000x6x256),
    StableHlo.TRef.binary (.of main_call2_v2 : StableHlo.TRef sig ⟨S20000x6x256, .f32⟩) (.of main_v58 : StableHlo.TRef sig ⟨S20000x6x256, .f32⟩) (.of main_call2_v3 : StableHlo.TRef sig ⟨S20000x6x256, .f32⟩) mulf,
    StableHlo.TRef.ternary (.of main_call2_v1 : StableHlo.TRef sig ⟨S20000x6x256, .i1⟩) (.of main_v58 : StableHlo.TRef sig ⟨S20000x6x256, .f32⟩) (.of main_call2_v3 : StableHlo.TRef sig ⟨S20000x6x256, .f32⟩) (.of main_v59 : StableHlo.TRef sig ⟨S20000x6x256, .f32⟩) select,
    StableHlo.binary main_v59 main_arg6 main_v60 ((fun l r => Host.dotGeneral dot_S20000x6x256_S256x256_S20000x6x256_2_1_01_0_n_n none l r) : (⟨S20000x6x256, .f32⟩ : BufTy).Contents (Elt F) → (⟨S256x256, .f32⟩ : BufTy).Contents (Elt F) → (⟨S20000x6x256, .f32⟩ : BufTy).Contents (Elt F)),
    StableHlo.unary main_arg7 main_v61 (broadcastInDim S1x1x256 ![2] bcast_S256_S1x1x256_2 : (⟨S256, .f32⟩ : BufTy).Contents (Elt F) → (⟨S1x1x256, .f32⟩ : BufTy).Contents (Elt F)),
    StableHlo.unary main_v61 main_v62 (broadcastInDim S20000x6x256 ![0, 1, 2] bcast_S1x1x256_S20000x6x256_0_1_2 : (⟨S1x1x256, .f32⟩ : BufTy).Contents (Elt F) → (⟨S20000x6x256, .f32⟩ : BufTy).Contents (Elt F)),
    StableHlo.binary main_v60 main_v62 main_v63 (addf : (⟨S20000x6x256, .f32⟩ : BufTy).Contents (Elt F) → (⟨S20000x6x256, .f32⟩ : BufTy).Contents (Elt F) → (⟨S20000x6x256, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S20000x6x256, .f32⟩) (broadcastInDim S20000x6x256 ![] bcast_S_S20000x6x256),
    StableHlo.TRef.binary (.of main_v63 : StableHlo.TRef sig ⟨S20000x6x256, .f32⟩) (.of main_call3_v0 : StableHlo.TRef sig ⟨S20000x6x256, .f32⟩) (.of main_call3_v1 : StableHlo.TRef sig ⟨S20000x6x256, .i1⟩) (cmpf .oge),
    StableHlo.TRef.nullary (.of main_call3_cst_0 : StableHlo.TRef sig ⟨S_, .f32⟩) (constant S_ .f32 0x3C23D70A#32),
    StableHlo.TRef.unary (.of main_call3_cst_0 : StableHlo.TRef sig ⟨S_, .f32⟩) (.of main_call3_v2 : StableHlo.TRef sig ⟨S20000x6x256, .f32⟩) (broadcastInDim S20000x6x256 ![] bcast_S_S20000x6x256),
    StableHlo.TRef.binary (.of main_call3_v2 : StableHlo.TRef sig ⟨S20000x6x256, .f32⟩) (.of main_v63 : StableHlo.TRef sig ⟨S20000x6x256, .f32⟩) (.of main_call3_v3 : StableHlo.TRef sig ⟨S20000x6x256, .f32⟩) mulf,
    StableHlo.TRef.ternary (.of main_call3_v1 : StableHlo.TRef sig ⟨S20000x6x256, .i1⟩) (.of main_v63 : StableHlo.TRef sig ⟨S20000x6x256, .f32⟩) (.of main_call3_v3 : StableHlo.TRef sig ⟨S20000x6x256, .f32⟩) (.of main_v64 : StableHlo.TRef sig ⟨S20000x6x256, .f32⟩) select,
    StableHlo.binary main_v64 main_arg8 main_v65 ((fun l r => Host.dotGeneral dot_S20000x6x256_S1x256_S20000x6x1_2_1_01_0_n_n none l r) : (⟨S20000x6x256, .f32⟩ : BufTy).Contents (Elt F) → (⟨S1x256, .f32⟩ : BufTy).Contents (Elt F) → (⟨S20000x6x1, .f32⟩ : BufTy).Contents (Elt F)),
    StableHlo.unary main_arg9 main_v66 (broadcastInDim S1x1x1 ![2] bcast_S1_S1x1x1_2 : (⟨S1, .f32⟩ : BufTy).Contents (Elt F) → (⟨S1x1x1, .f32⟩ : BufTy).Contents (Elt F)),
    StableHlo.unary main_v66 main_v67 (broadcastInDim S20000x6x1 ![0, 1, 2] bcast_S1x1x1_S20000x6x1_0_1_2 : (⟨S1x1x1, .f32⟩ : BufTy).Contents (Elt F) → (⟨S20000x6x1, .f32⟩ : BufTy).Contents (Elt F)),
    StableHlo.binary main_v65 main_v67 main_v68 (addf : (⟨S20000x6x1, .f32⟩ : BufTy).Contents (Elt F) → (⟨S20000x6x1, .f32⟩ : BufTy).Contents (Elt F) → (⟨S20000x6x1, .f32⟩ : BufTy).Contents (Elt F)) ]
/-- Each of them touches TensorCore references only. -/
theorem opsPost_sub : (opsPost : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub ..⟩

end Cert.ReferenceIdeal.Hand

end
-- ==== Proof.RefRun.lean ====
/-
  The reference program's run, read back as a fold over its operations.

  The program is a straight line of host operations: its two windows in order, each called function's body standing where the
  call does. Written over the literal list of those operations, the program is the line of the list, so from any memory
  with zero counters every fair execution terminates and each buffer ends holding the fold of the operations' results over
  what the launch found there. The list is kept in two pieces, cut after the aggregated features, so that what follows can
  name those features without opening the operations that produce them.
-/
import proofs.«110510_j54503134986926_2_alg».proof.Proof.RefOps
import Idealize.ShloMosaic.Lib.Pipeline.Regions

noncomputable section

namespace Cert.ReferenceIdeal.Hand

open Cert.ReferenceIdeal Idealize.ShloMosaic Idealize.ShloMosaic.TcCoe Idealize.SL.Sem Idealize.ShloMosaic.StableHlo

variable {F : FTy → Type} [FloatOps F]

/-- The program is the line of its operations, by computation: the two windows and the called functions unfolded and the
    sequencing re-associated, both sides are one chain of single-operation steps. -/
theorem main_eq (c : Dev nD) : main (F := F) c = seq (opsPre ++ opsPost) := by
  chain_rfl

/-- The signature scopes no buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (opsPre ++ opsPost : List (HloOp τ sig (Elt F))).Forall fun op => op.bufs ⊆ tcRefs τ sig :=
  List.forall_append.mpr ⟨opsPre_sub, opsPost_sub⟩

/-- Every operation determines its results. -/
theorem opsPre_fresh : ∀ op ∈ (opsPre : List (HloOp τ sig (Elt F))), op.fresh = ∅ := by
  intro _ h
  repeat (cases h with | head => rfl | tail _ h => ?_)
  exact nomatch h
theorem opsPost_fresh : ∀ op ∈ (opsPost : List (HloOp τ sig (Elt F))), op.fresh = ∅ := by
  intro _ h
  repeat (cases h with | head => rfl | tail _ h => ?_)
  exact nomatch h

/-- On every device, for any float values, from any memory with zero counters: every weakly fair execution of the program
    terminates, and each buffer ends at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (opsPre ++ opsPost) (launchContents m c) (Proc.devRef .tc b) :=
  run_seq scopedRefs_eq scopedSems_eq defs main (fun _ => opsPre ++ opsPost) main_eq (fun _ => ops_sub) m ρ
    (fun _ op h => (List.mem_append.mp h).elim (opsPre_fresh op) (opsPost_fresh op))

end Cert.ReferenceIdeal.Hand

end
-- ==== Proof.RefTail.lean ====
/-
  The operations after the aggregated features, as one function of what they read.

  After the aggregated features the program clamps them below at zero, adds the input rows, regroups the 120000 rows into
  20000 groups of 6, and applies two dense layers, each followed by the leaky rectifier, and a projection to one value per
  node. Named stage by stage over variables, the result buffer after those operations holds that composition applied to
  the aggregated features' buffer and to seven argument buffers, whatever the buffers held before: the fold over the
  operations computes to it.
-/
import proofs.«110510_j54503134986926_2_alg».proof.Proof.RefRun
import Idealize.ShloMosaic.PureOps.Ideal

noncomputable section

namespace Cert.ReferenceIdeal.Hand

open Cert.ReferenceIdeal Cert.ReferenceIdeal.Facts₀ Idealize.ShloMosaic Idealize.ShloMosaic.TcCoe Idealize.SL.Sem Idealize.ShloMosaic.StableHlo

/-! ### The operations after the aggregated features, as stages over variables -/

/-- The clamp below at zero, the residual sum with the input rows, and the regrouping of the 120000 rows into 20000 groups of 6. -/
def resid (a x : FVec Ideal S120000x64 .f32) : FVec Ideal S20000x6x64 .f32 :=
  shapeCast S20000x6x64
    (addf (maximumf a (broadcastInDim S120000x64 ![] bcast_S_S120000x64 (constant S_ .f32 0x00000000#32))) x)
    shapeCasts_S120000x64_S20000x6x64

/-- The leaky rectifier on a whole array: the array where it is at least zero, the slope times it elsewhere. -/
def leakyV (z : FVec Ideal S20000x6x256 .f32) : FVec Ideal S20000x6x256 .f32 :=
  select (cmpf .oge z (broadcastInDim S20000x6x256 ![] bcast_S_S20000x6x256 (constant S_ .f32 0x00000000#32))) z
    (mulf (broadcastInDim S20000x6x256 ![] bcast_S_S20000x6x256 (constant S_ .f32 0x3C23D70A#32)) z)

/-- A bias row spread over every node. -/
def bias256 (v : FVec Ideal S256 .f32) : FVec Ideal S20000x6x256 .f32 :=
  broadcastInDim S20000x6x256 ![0, 1, 2] bcast_S1x1x256_S20000x6x256_0_1_2 (broadcastInDim S1x1x256 ![2] bcast_S256_S1x1x256_2 v)

/-- The scalar bias spread over every node. -/
def bias1 (v : FVec Ideal S1 .f32) : FVec Ideal S20000x6x1 .f32 :=
  broadcastInDim S20000x6x1 ![0, 1, 2] bcast_S1x1x1_S20000x6x1_0_1_2 (broadcastInDim S1x1x1 ![2] bcast_S1_S1x1x1_2 v)

/-- Everything after the aggregated features: the residual rows through two dense layers with leaky rectifiers, then the
    projection to one value per node. -/
def tail (a x : FVec Ideal S120000x64 .f32) (W1 : FVec Ideal S256x64 .f32) (b1 : FVec Ideal S256 .f32)
    (W2 : FVec Ideal S256x256 .f32) (b2 : FVec Ideal S256 .f32) (Wd : FVec Ideal S1x256 .f32) (bd : FVec Ideal S1 .f32) :
    FVec Ideal S20000x6x1 .f32 :=
  addf
    (Host.dotGeneral dot_S20000x6x256_S1x256_S20000x6x1_2_1_01_0_n_n none
      (leakyV (addf
        (Host.dotGeneral dot_S20000x6x256_S256x256_S20000x6x256_2_1_01_0_n_n none
          (leakyV (addf (Host.dotGeneral dot_S20000x6x64_S256x64_S20000x6x256_2_1_01_0_n_n none (resid a x) W1) (bias256 b1)))
          W2)
        (bias256 b2)))
      Wd)
    (bias1 bd)

/-- The result buffer after the operations that follow the aggregated features, from any contents: the stages composed,
    at the aggregated features' buffer and the argument buffers. Each operation's result is read at its own buffer and
    every other buffer is left as it was; a called function's operations carry their values to the buffers' own types and
    back, which at these literal buffers changes nothing. -/
theorem tail_fold (W : Valuation τ sig (Elt Ideal)) :
    after (opsPost (F := Ideal)) W (Proc.devRef .tc main_v68)
      = tail (W (Proc.devRef .tc main_v51)) (W (Proc.devRef .tc main_arg0)) (W (Proc.devRef .tc main_arg4))
          (W (Proc.devRef .tc main_arg5)) (W (Proc.devRef .tc main_arg6)) (W (Proc.devRef .tc main_arg7))
          (W (Proc.devRef .tc main_arg8)) (W (Proc.devRef .tc main_arg9)) := by
  after_results_simp
  rfl

end Cert.ReferenceIdeal.Hand

end
-- ==== Proof.RefKeeps.lean ====
/-
  No operation of the reference program writes an argument.

  Every operation writes one buffer, its own result, and no result buffer is an argument's. So whatever stretch of the program
  has run, each argument's buffer holds what the launch found there.
-/
import proofs.«110510_j54503134986926_2_alg».proof.Proof.RefRun

noncomputable section

namespace Cert.ReferenceIdeal.Hand

open Cert.ReferenceIdeal Idealize.ShloMosaic Idealize.ShloMosaic.TcCoe Idealize.SL.Sem Idealize.ShloMosaic.StableHlo

variable {F : FTy → Type} [FloatOps F]

/-- Each operation of the stretch writes a reference other than the given one: its writes are the singleton of its result
    buffer, and the two references are told apart by computation. -/
local macro "keeps" : tactic => `(tactic| (
  refine after_of_forall_not_mem _ _ (List.forall_iff_forall_mem.mp ?_)
  simp only [opsPre, opsPost, List.Forall, nullary_writes, unary_writes, binary_writes, ternary_writes, reshape_writes,
    Finset.mem_singleton]
  repeat' apply And.intro
  all_goals exact devRef_ne_of_ne (by decide)))

theorem opsPre_keeps_arg0 (V : Valuation τ sig (Elt F)) :
    after (opsPre (F := F)) V (Proc.devRef .tc main_arg0) = V (Proc.devRef .tc main_arg0) := by keeps
theorem opsPre_keeps_arg1 (V : Valuation τ sig (Elt F)) :
    after (opsPre (F := F)) V (Proc.devRef .tc main_arg1) = V (Proc.devRef .tc main_arg1) := by keeps
theorem opsPre_keeps_arg2 (V : Valuation τ sig (Elt F)) :
    after (opsPre (F := F)) V (Proc.devRef .tc main_arg2) = V (Proc.devRef .tc main_arg2) := by keeps
theorem opsPre_keeps_arg3 (V : Valuation τ sig (Elt F)) :
    after (opsPre (F := F)) V (Proc.devRef .tc main_arg3) = V (Proc.devRef .tc main_arg3) := by keeps
theorem opsPre_keeps_arg4 (V : Valuation τ sig (Elt F)) :
    after (opsPre (F := F)) V (Proc.devRef .tc main_arg4) = V (Proc.devRef .tc main_arg4) := by keeps
theorem opsPre_keeps_arg5 (V : Valuation τ sig (Elt F)) :
    after (opsPre (F := F)) V (Proc.devRef .tc main_arg5) = V (Proc.devRef .tc main_arg5) := by keeps
theorem opsPre_keeps_arg6 (V : Valuation τ sig (Elt F)) :
    after (opsPre (F := F)) V (Proc.devRef .tc main_arg6) = V (Proc.devRef .tc main_arg6) := by keeps
theorem opsPre_keeps_arg7 (V : Valuation τ sig (Elt F)) :
    after (opsPre (F := F)) V (Proc.devRef .tc main_arg7) = V (Proc.devRef .tc main_arg7) := by keeps
theorem opsPre_keeps_arg8 (V : Valuation τ sig (Elt F)) :
    after (opsPre (F := F)) V (Proc.devRef .tc main_arg8) = V (Proc.devRef .tc main_arg8) := by keeps
theorem opsPre_keeps_arg9 (V : Valuation τ sig (Elt F)) :
    after (opsPre (F := F)) V (Proc.devRef .tc main_arg9) = V (Proc.devRef .tc main_arg9) := by keeps
theorem opsPost_keeps_arg0 (V : Valuation τ sig (Elt F)) :
    after (opsPost (F := F)) V (Proc.devRef .tc main_arg0) = V (Proc.devRef .tc main_arg0) := by keeps
theorem opsPost_keeps_arg1 (V : Valuation τ sig (Elt F)) :
    after (opsPost (F := F)) V (Proc.devRef .tc main_arg1) = V (Proc.devRef .tc main_arg1) := by keeps
theorem opsPost_keeps_arg2 (V : Valuation τ sig (Elt F)) :
    after (opsPost (F := F)) V (Proc.devRef .tc main_arg2) = V (Proc.devRef .tc main_arg2) := by keeps
theorem opsPost_keeps_arg3 (V : Valuation τ sig (Elt F)) :
    after (opsPost (F := F)) V (Proc.devRef .tc main_arg3) = V (Proc.devRef .tc main_arg3) := by keeps
theorem opsPost_keeps_arg4 (V : Valuation τ sig (Elt F)) :
    after (opsPost (F := F)) V (Proc.devRef .tc main_arg4) = V (Proc.devRef .tc main_arg4) := by keeps
theorem opsPost_keeps_arg5 (V : Valuation τ sig (Elt F)) :
    after (opsPost (F := F)) V (Proc.devRef .tc main_arg5) = V (Proc.devRef .tc main_arg5) := by keeps
theorem opsPost_keeps_arg6 (V : Valuation τ sig (Elt F)) :
    after (opsPost (F := F)) V (Proc.devRef .tc main_arg6) = V (Proc.devRef .tc main_arg6) := by keeps
theorem opsPost_keeps_arg7 (V : Valuation τ sig (Elt F)) :
    after (opsPost (F := F)) V (Proc.devRef .tc main_arg7) = V (Proc.devRef .tc main_arg7) := by keeps
theorem opsPost_keeps_arg8 (V : Valuation τ sig (Elt F)) :
    after (opsPost (F := F)) V (Proc.devRef .tc main_arg8) = V (Proc.devRef .tc main_arg8) := by keeps
theorem opsPost_keeps_arg9 (V : Valuation τ sig (Elt F)) :
    after (opsPost (F := F)) V (Proc.devRef .tc main_arg9) = V (Proc.devRef .tc main_arg9) := by keeps

end Cert.ReferenceIdeal.Hand

end
-- ==== Proof.LibHostFold.lean ====
/-
  Two facts about folding a straight line of host operations over buffer contents.

  The contents after a list of operations are a fold over the list, so the fold of a concatenation is the fold of the second
  part from the fold of the first: a long program can be evaluated stretch by stretch, the contents between two stretches a
  variable. And an operation of a called function reads and writes its buffers through a typed reference, which carries
  contents to the buffer's own type and back; the round trip is the identity, and saying so once lets the evaluated term be
  compared with a named one without going through each pair of casts.
-/
import Idealize.ShloMosaic.Lib.StableHlo.Run

namespace Idealize.ShloMosaic.HostFold

open Idealize.ShloMosaic Idealize.ShloMosaic.StableHlo

variable {τ : Topo} {sig : RefSig} {Val : EltTy → Type}

/-- Folding a concatenation of operation lists is folding its parts in order. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried through a typed reference to its buffer's own type and back are unchanged. -/
theorem ofBuf_toBuf {T : BufTy} (x : TRef sig T) (v : T.Contents Val) : x.ofBuf (x.toBuf v) = v := by
  obtain ⟨r, h, _, _⟩ := x
  subst h
  rfl

end Idealize.ShloMosaic.HostFold
-- ==== Proof.RefOpsAt.lean ====
/-
  The reference's dense-layer operations, each read at an index.

  The reference arranges the 120000 nodes as 20000 groups of 6.  A product of the arrangement against a weight matrix
  contracts the last axis of the left operand with the second axis of the right one: at `(b, a, j)` it is the sum
  over the shared coordinate `c` of the left operand at `(b, a, c)` times the weight at `(j, c)`.  A bias vector is
  spread over the groups and the positions inside a group; the rearrangement of the rows reads node `6 b + a`; the
  rectifiers compare with a spread scalar.
-/
import proofs.«110510_j54503134986926_2_alg».proof.ReferenceIdeal
import proofs.«110510_j54503134986926_2_alg».proof.Proof.Spec
import proofs.«110510_j54503134986926_2_alg».proof.Proof.LibContract
import proofs.«110510_j54503134986926_2_alg».proof.Proof.LibRowLayout
import Idealize.ShloMosaic.Lib.ValueIdx
import Idealize.ShloMosaic.Lib.Pipeline.Value
import Idealize.ShloMosaic.PureOps.Ideal.Laws

noncomputable section

namespace Cert.ReferenceIdeal.At

open Idealize.ShloMosaic Idealize.ShloMosaic.ValueIdx Cert.ReferenceIdeal

/-! ### A product of a three-axis arrangement against a matrix, last axis against second axis -/

section Rows

variable {A B K N : Nat} (d : DotDims ⟨3, ![A, B, K]⟩ ⟨2, ![N, K]⟩ ⟨3, ![A, B, N]⟩)
  (hcl : d.lhsContracting = [2]) (hcr : d.rhsContracting = [1])
  (hrank : d.contr.rank = 1) (hsize : d.contr.size ⟨0, by omega⟩ = K)
  (hl0 : ∀ (j : (⟨3, ![A, B, N]⟩ : Shape).Idx) (q : d.contr.Idx), (d.lhsIdx j q 0).val = (j 0).val)
  (hl1 : ∀ (j : (⟨3, ![A, B, N]⟩ : Shape).Idx) (q : d.contr.Idx), (d.lhsIdx j q 1).val = (j 1).val)
  (hr0 : ∀ (j : (⟨3, ![A, B, N]⟩ : Shape).Idx) (q : d.contr.Idx), (d.rhsIdx j q 0).val = (j 2).val)

include hcl hl0 hl1 in
/-- The left operand's index at output `(b, a, j)` and shared coordinate `c` is `(b, a, c)`. -/
theorem lhsIdx_eq (b : Fin A) (a : Fin B) (j : Fin N) (c : Fin K) :
    d.lhsIdx (ix3 b a j) ((contrEquiv1 d K hrank hsize).symm c) = ix3 b a c := by
  have hc := contrEquiv1_symm_val d K hrank hsize c
  funext x
  refine Fin.ext ?_
  match x with
  | ⟨0, _⟩ => exact hl0 _ _
  | ⟨1, _⟩ => exact hl1 _ _
  | ⟨2, _⟩ => exact (d.lhsIdx_val_of_single hcl _ _).trans hc

include hcr hr0 in
/-- The right operand's index at output `(b, a, j)` and shared coordinate `c` is `(j, c)`. -/
theorem rhsIdx_eq (b : Fin A) (a : Fin B) (j : Fin N) (c : Fin K) :
    d.rhsIdx (ix3 b a j) ((contrEquiv1 d K hrank hsize).symm c) = ix2 j c := by
  have hc := contrEquiv1_symm_val d K hrank hsize c
  funext x
  refine Fin.ext ?_
  match x with
  | ⟨0, _⟩ => exact hr0 _ _
  | ⟨1, _⟩ => exact (d.rhsIdx_val_of_single hcr _ _).trans hc

include hcl hcr hrank hsize hl0 hl1 hr0 in
/-- The host's product at `(b, a, j)`: the sum over the shared coordinate. -/
theorem dot_rows_apply {φ₁ φ₂ : FTy} (prec : Option ContractPrecision)
    (l : FVec Ideal ⟨3, ![A, B, K]⟩ φ₁) (r : FVec Ideal ⟨2, ![N, K]⟩ φ₂) (b : Fin A) (a : Fin B) (j : Fin N) :
    Host.dotGeneral (F := Ideal) d prec l r (ix3 b a j) = ∑ c : Fin K, l (ix3 b a c) * r (ix2 j c) :=
  ContractSingle.dotGeneral_single d prec .single K hrank hsize l r (ix3 b a j) (fun c => l (ix3 b a c)) (fun c => r (ix2 j c))
    (fun c => congrArg l (lhsIdx_eq d hcl hrank hsize hl0 hl1 b a j c))
    (fun c => congrArg r (rhsIdx_eq d hcr hrank hsize hr0 b a j c))

end Rows

/-! ### The bias vectors, spread over the groups and the positions inside a group

    Each shape fact is a hypothesis of its lemma, so that the lemma meets the operation whatever proof of the fact the
    term carries. -/

/-- A 256-vector given two leading unit axes and spread over `20000 × 6` reads its entry `j` at `(b, a, j)`. -/
theorem bias256_apply (v : FVec Ideal S256 .f32)
    (h2 : S1x1x256.BroadcastsInDim S20000x6x256 (![0, 1, 2] : Fin 3 → Fin S20000x6x256.rank))
    (h1 : S256.BroadcastsInDim S1x1x256 (![2] : Fin 1 → Fin S1x1x256.rank)) (b : Fin 20000) (a : Fin 6) (j : Fin 256) :
    broadcastInDim S20000x6x256 ![0, 1, 2] h2 (broadcastInDim S1x1x256 ![2] h1 v) (ix3 b a j) = v (ix1 j) := by
  refine (broadcastInDim_apply _ h2 _ (ix3 b a j) (ix3 (0 : Fin 1) (0 : Fin 1) j) fun x => ?_).trans ?_
  · match x with
    | ⟨0, _⟩ => rfl
    | ⟨1, _⟩ => rfl
    | ⟨2, _⟩ => rfl
  · refine broadcastInDim_apply _ h1 v (ix3 (0 : Fin 1) (0 : Fin 1) j) (ix1 j) fun x => ?_
    match x with
    | ⟨0, _⟩ => rfl

/-- The scalar bias given two leading unit axes and spread over `20000 × 6` reads its one entry everywhere. -/
theorem bias1_apply (v : FVec Ideal S1 .f32)
    (h2 : S1x1x1.BroadcastsInDim S20000x6x1 (![0, 1, 2] : Fin 3 → Fin S20000x6x1.rank))
    (h1 : S1.BroadcastsInDim S1x1x1 (![2] : Fin 1 → Fin S1x1x1.rank)) (b : Fin 20000) (a : Fin 6) (u : Fin 1) :
    broadcastInDim S20000x6x1 ![0, 1, 2] h2 (broadcastInDim S1x1x1 ![2] h1 v) (ix3 b a u) = v (ix1 (0 : Fin 1)) := by
  refine (broadcastInDim_apply _ h2 _ (ix3 b a u) (ix3 (0 : Fin 1) (0 : Fin 1) (0 : Fin 1)) fun x => ?_).trans ?_
  · match x with
    | ⟨0, _⟩ => rfl
    | ⟨1, _⟩ => rfl
    | ⟨2, _⟩ => rfl
  · refine broadcastInDim_apply _ h1 v (ix3 (0 : Fin 1) (0 : Fin 1) (0 : Fin 1)) (ix1 (0 : Fin 1)) fun x => ?_
    match x with
    | ⟨0, _⟩ => rfl

/-! ### The rows rearranged as groups of 6 -/

/-- Position `(b, a)` of the arrangement holds row `6 b + a`. -/
theorem rows_apply (x : FVec Ideal S120000x64 .f32) (h : S120000x64.ShapeCasts S20000x6x64) (b : Fin 20000) (a : Fin 6) (k : Fin 64) :
    shapeCast S20000x6x64 x h (ix3 b a k) = x (ix2 (Cert.Mlp.node b a) k) :=
  shapeCast_apply x h (ix3 b a k) (ix2 (Cert.Mlp.node b a) k) (by
    rw [Shape.rowMajor_val_two, Shape.rowMajor_val_three]
    rfl)

/-! ### The rectifiers -/

/-- The clamp below at zero, at an index. -/
theorem relu_apply (x : FVec Ideal S120000x64 .f32) (h : S_.BroadcastsInDim S120000x64 (![] : Fin 0 → Fin S120000x64.rank))
    (i : S120000x64.Idx) :
    maximumf x (broadcastInDim S120000x64 ![] h (constant (F := Ideal) S_ .f32 0x00000000#32)) i
      = max (x i) (Ideal.ofBits .f32 0x00000000#32) := by
  rw [maximumf_apply, RowLayout.spread_scalar, constant_apply]

/-- The leaky rectifier as the reference spells it — compare with zero, multiply by the slope, choose — at an index. -/
theorem leaky_apply (v : FVec Ideal S20000x6x256 .f32) (h h' : S_.BroadcastsInDim S20000x6x256 (![] : Fin 0 → Fin S20000x6x256.rank))
    (i : S20000x6x256.Idx) :
    select (cmpf .oge v (broadcastInDim S20000x6x256 ![] h (constant (F := Ideal) S_ .f32 0x00000000#32))) v
        (mulf (broadcastInDim S20000x6x256 ![] h' (constant (F := Ideal) S_ .f32 0x3C23D70A#32)) v) i
      = Cert.Mlp.leaky (v i) := by
  rw [select_apply, cmpf_apply, mulf_apply, RowLayout.spread_scalar, RowLayout.spread_scalar, constant_apply, constant_apply]
  rfl

variable [Cert.ReferenceIdeal.Facts]

open Cert.ReferenceIdeal.Facts₀ Cert.ReferenceIdeal.Facts

/-! ### The three products -/

/-- The first layer's product at `(b, a, j)`. -/
theorem dot1_apply (l : FVec Ideal S20000x6x64 .f32) (r : FVec Ideal S256x64 .f32) (b : Fin 20000) (a : Fin 6) (j : Fin 256) :
    Host.dotGeneral (F := Ideal) dot_S20000x6x64_S256x64_S20000x6x256_2_1_01_0_n_n none l r (ix3 b a j) = ∑ c : Fin 64, l (ix3 b a c) * r (ix2 j c) :=
  dot_rows_apply dot_S20000x6x64_S256x64_S20000x6x256_2_1_01_0_n_n rfl rfl rfl rfl
    (fun j q => by simp [DotDims.lhsIdx, dot_S20000x6x64_S256x64_S20000x6x256_2_1_01_0_n_n]; rfl)
    (fun j q => by simp [DotDims.lhsIdx, dot_S20000x6x64_S256x64_S20000x6x256_2_1_01_0_n_n]; rfl)
    (fun j q => by simp [DotDims.rhsIdx, dot_S20000x6x64_S256x64_S20000x6x256_2_1_01_0_n_n]; rfl) none l r b a j

/-- The second layer's product at `(b, a, g)`. -/
theorem dot2_apply (l : FVec Ideal S20000x6x256 .f32) (r : FVec Ideal S256x256 .f32) (b : Fin 20000) (a : Fin 6) (g : Fin 256) :
    Host.dotGeneral (F := Ideal) dot_S20000x6x256_S256x256_S20000x6x256_2_1_01_0_n_n none l r (ix3 b a g) = ∑ h : Fin 256, l (ix3 b a h) * r (ix2 g h) :=
  dot_rows_apply dot_S20000x6x256_S256x256_S20000x6x256_2_1_01_0_n_n rfl rfl rfl rfl
    (fun j q => by simp [DotDims.lhsIdx, dot_S20000x6x256_S256x256_S20000x6x256_2_1_01_0_n_n]; rfl)
    (fun j q => by simp [DotDims.lhsIdx, dot_S20000x6x256_S256x256_S20000x6x256_2_1_01_0_n_n]; rfl)
    (fun j q => by simp [DotDims.rhsIdx, dot_S20000x6x256_S256x256_S20000x6x256_2_1_01_0_n_n]; rfl) none l r b a g

/-- The projection's product at `(b, a, u)`. -/
theorem dot3_apply (l : FVec Ideal S20000x6x256 .f32) (r : FVec Ideal S1x256 .f32) (b : Fin 20000) (a : Fin 6) (u : Fin 1) :
    Host.dotGeneral (F := Ideal) dot_S20000x6x256_S1x256_S20000x6x1_2_1_01_0_n_n none l r (ix3 b a u) = ∑ g : Fin 256, l (ix3 b a g) * r (ix2 u g) :=
  dot_rows_apply dot_S20000x6x256_S1x256_S20000x6x1_2_1_01_0_n_n rfl rfl rfl rfl
    (fun j q => by simp [DotDims.lhsIdx, dot_S20000x6x256_S1x256_S20000x6x1_2_1_01_0_n_n]; rfl)
    (fun j q => by simp [DotDims.lhsIdx, dot_S20000x6x256_S1x256_S20000x6x1_2_1_01_0_n_n]; rfl)
    (fun j q => by
      have h0 : (dot_S20000x6x256_S1x256_S20000x6x1_2_1_01_0_n_n.rhsIdx j q 0).val < 1 := (dot_S20000x6x256_S1x256_S20000x6x1_2_1_01_0_n_n.rhsIdx j q 0).isLt
      have h2 : (j 2).val < 1 := (j 2).isLt
      omega) none l r b a u

end Cert.ReferenceIdeal.At

end
-- ==== Proof.RefValue.lean ====
/-
  The reference program computes the node-wise perceptron of the aggregated features.

  The operations up to the aggregated features are kept as they are: whatever they leave in that buffer is named and never
  opened. The operations after it compose, stage by stage, to a function of that buffer and of seven of the program's
  arguments, none of which any operation writes. Read at a position of the result, each stage is what the specification
  says of the node the position stands for: the clamp and residual sum are the node's hidden row, each dense layer is the sum
  of the previous row's products with a weight row plus a bias under the leaky rectifier, and the projection is the last
  row against the one weight row plus the scalar bias. So the run ends with the specification's value in the result buffer
  and with every argument as it began.
-/
import proofs.«110510_j54503134986926_2_alg».proof.Proof.RefTail
import proofs.«110510_j54503134986926_2_alg».proof.Proof.RefKeeps
import proofs.«110510_j54503134986926_2_alg».proof.Proof.Spec
import proofs.«110510_j54503134986926_2_alg».proof.Proof.LibHostFold
import proofs.«110510_j54503134986926_2_alg».proof.Proof.RefOpsAt

noncomputable section

namespace Cert.ReferenceIdeal.Hand

open Cert.ReferenceIdeal Cert.ReferenceIdeal.Facts₀ Idealize.ShloMosaic Idealize.ShloMosaic.TcCoe Idealize.SL.Sem Idealize.ShloMosaic.StableHlo
open Idealize.ShloMosaic.ValueIdx

/-- The aggregated features: what the operations of the first stretch leave in their buffer. -/
def agg (m : (ℓ : Loc nD τ sig) → Buf (Elt Ideal) ℓ) (c : Dev nD) : (⟨2, ![120000, 64]⟩ : Shape).Idx → EReal :=
  after (opsPre (F := Ideal)) (launchContents m c) (Proc.devRef .tc main_v51)

/-! ### Each stage read at a node -/

/-- The leaky rectifier on an array reads, at an index, the leaky rectifier of the entry. -/
theorem leakyV_apply (z : FVec Ideal S20000x6x256 .f32) (i : S20000x6x256.Idx) : leakyV z i = Cert.Mlp.leaky (z i) :=
  At.leaky_apply z _ _ i

/-- A bias row spread over the nodes reads its entry of the column. -/
theorem bias256_apply (v : FVec Ideal S256 .f32) (b : Fin 20000) (s : Fin 6) (j : Fin 256) :
    bias256 v (ix3 b s j) = v (ix1 j) :=
  At.bias256_apply v _ _ b s j

/-- The scalar bias spread over the nodes reads the scalar. -/
theorem bias1_apply (v : FVec Ideal S1 .f32) (b : Fin 20000) (s : Fin 6) (u : Fin 1) :
    bias1 v (ix3 b s u) = v (ix1 (0 : Fin 1)) :=
  At.bias1_apply v _ _ b s u

/-- The regrouped residual rows at position `(b, s)` are node `6 b + s`'s hidden row. -/
theorem resid_apply (a x : FVec Ideal S120000x64 .f32) (b : Fin 20000) (s : Fin 6) (c : Fin 64) :
    resid a x (ix3 b s c)
      = Cert.Mlp.hid (fun c => a (ix2 (Cert.Mlp.node b s) c)) (fun c => x (ix2 (Cert.Mlp.node b s) c)) c := by
  unfold resid
  rw [At.rows_apply, addf_apply, At.relu_apply]
  rfl

/-- The first dense layer at a node and a hidden coordinate. -/
theorem dense1_apply (h : FVec Ideal S20000x6x64 .f32) (W : FVec Ideal S256x64 .f32) (v : FVec Ideal S256 .f32)
    (b : Fin 20000) (s : Fin 6) (j : Fin 256) :
    leakyV (addf (Host.dotGeneral dot_S20000x6x64_S256x64_S20000x6x256_2_1_01_0_n_n none h W) (bias256 v)) (ix3 b s j)
      = Cert.Mlp.leaky ((∑ c : Fin 64, h (ix3 b s c) * W (ix2 j c)) + v (ix1 j)) := by
  rw [leakyV_apply, addf_apply, At.dot1_apply, bias256_apply]

/-- The second dense layer at a node and a hidden coordinate. -/
theorem dense2_apply (h : FVec Ideal S20000x6x256 .f32) (W : FVec Ideal S256x256 .f32) (v : FVec Ideal S256 .f32)
    (b : Fin 20000) (s : Fin 6) (g : Fin 256) :
    leakyV (addf (Host.dotGeneral dot_S20000x6x256_S256x256_S20000x6x256_2_1_01_0_n_n none h W) (bias256 v)) (ix3 b s g)
      = Cert.Mlp.leaky ((∑ j : Fin 256, h (ix3 b s j) * W (ix2 g j)) + v (ix1 g)) := by
  rw [leakyV_apply, addf_apply, At.dot2_apply, bias256_apply]

/-- The projection at a node. -/
theorem proj_apply (h : FVec Ideal S20000x6x256 .f32) (W : FVec Ideal S1x256 .f32) (v : FVec Ideal S1 .f32)
    (b : Fin 20000) (s : Fin 6) (u : Fin 1) :
    addf (Host.dotGeneral dot_S20000x6x256_S1x256_S20000x6x1_2_1_01_0_n_n none h W) (bias1 v) (ix3 b s u)
      = (∑ g : Fin 256, h (ix3 b s g) * W (ix2 u g)) + v (ix1 (0 : Fin 1)) := by
  rw [addf_apply, At.dot3_apply, bias1_apply]

/-- The stages composed are the specification: position `(b, s, 0)` of the result holds node `6 b + s`'s output. -/
theorem tail_eq_G (a x : FVec Ideal S120000x64 .f32) (W1 : FVec Ideal S256x64 .f32) (b1 : FVec Ideal S256 .f32)
    (W2 : FVec Ideal S256x256 .f32) (b2 : FVec Ideal S256 .f32) (Wd : FVec Ideal S1x256 .f32) (bd : FVec Ideal S1 .f32) :
    tail a x W1 b1 W2 b2 Wd bd = Cert.Mlp.G a x W1 b1 W2 b2 Wd bd := by
  funext i
  obtain ⟨b, s, u, rfl⟩ : ∃ (b : Fin 20000) (s : Fin 6) (u : Fin 1), i = ix3 b s u := ⟨i 0, i 1, i 2, eq_ix3 i⟩
  obtain rfl : u = 0 := Fin.ext (by omega)
  rw [Cert.Mlp.G_apply]
  unfold tail Cert.Mlp.nodeOut Cert.Mlp.rowOut
  rw [proj_apply]
  refine congrArg (· + bd (ix1 (0 : Fin 1))) (Finset.sum_congr rfl fun g _ => congrArg (· * Wd (ix2 (0 : Fin 1) g)) ?_)
  rw [dense2_apply]
  unfold Cert.Mlp.lay2
  refine congrArg Cert.Mlp.leaky (congrArg (· + b2 (ix1 g)) (Finset.sum_congr rfl fun j _ => congrArg (· * W2 (ix2 g j)) ?_))
  rw [dense1_apply]
  unfold Cert.Mlp.lay1
  refine congrArg Cert.Mlp.leaky (congrArg (· + b1 (ix1 j)) (Finset.sum_congr rfl fun c _ => congrArg (· * W1 (ix2 j c)) ?_))
  exact resid_apply a x b s c

/-- The result buffer after the whole program, from the launch contents: the specification's function of the aggregated
    features and the arguments as launched. The fold splits at the aggregated features; the second part is the stages
    composed, at buffers of which the first part wrote only the aggregated features'. -/
theorem value (m : (ℓ : Loc nD τ sig) → Buf (Elt Ideal) ℓ) (c : Dev nD) :
    after (opsPre ++ opsPost) (launchContents m c) (Proc.devRef .tc main_v68)
      = Cert.Mlp.G (agg m c) (m ((c.tc : Thread nD τ).loc main_arg0)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) := by
  rw [HostFold.after_append, tail_fold, tail_eq_G, opsPre_keeps_arg0, opsPre_keeps_arg4, opsPre_keeps_arg5, opsPre_keeps_arg6,
    opsPre_keeps_arg7, opsPre_keeps_arg8, opsPre_keeps_arg9]
  rfl

/-- Each argument's buffer after the whole program holds what it held before. -/
theorem keeps_arg0 (V : Valuation τ sig (Elt Ideal)) :
    after (opsPre ++ opsPost) V (Proc.devRef .tc main_arg0) = V (Proc.devRef .tc main_arg0) := by
  rw [HostFold.after_append, opsPost_keeps_arg0, opsPre_keeps_arg0]
theorem keeps_arg1 (V : Valuation τ sig (Elt Ideal)) :
    after (opsPre ++ opsPost) V (Proc.devRef .tc main_arg1) = V (Proc.devRef .tc main_arg1) := by
  rw [HostFold.after_append, opsPost_keeps_arg1, opsPre_keeps_arg1]
theorem keeps_arg2 (V : Valuation τ sig (Elt Ideal)) :
    after (opsPre ++ opsPost) V (Proc.devRef .tc main_arg2) = V (Proc.devRef .tc main_arg2) := by
  rw [HostFold.after_append, opsPost_keeps_arg2, opsPre_keeps_arg2]
theorem keeps_arg3 (V : Valuation τ sig (Elt Ideal)) :
    after (opsPre ++ opsPost) V (Proc.devRef .tc main_arg3) = V (Proc.devRef .tc main_arg3) := by
  rw [HostFold.after_append, opsPost_keeps_arg3, opsPre_keeps_arg3]
theorem keeps_arg4 (V : Valuation τ sig (Elt Ideal)) :
    after (opsPre ++ opsPost) V (Proc.devRef .tc main_arg4) = V (Proc.devRef .tc main_arg4) := by
  rw [HostFold.after_append, opsPost_keeps_arg4, opsPre_keeps_arg4]
theorem keeps_arg5 (V : Valuation τ sig (Elt Ideal)) :
    after (opsPre ++ opsPost) V (Proc.devRef .tc main_arg5) = V (Proc.devRef .tc main_arg5) := by
  rw [HostFold.after_append, opsPost_keeps_arg5, opsPre_keeps_arg5]
theorem keeps_arg6 (V : Valuation τ sig (Elt Ideal)) :
    after (opsPre ++ opsPost) V (Proc.devRef .tc main_arg6) = V (Proc.devRef .tc main_arg6) := by
  rw [HostFold.after_append, opsPost_keeps_arg6, opsPre_keeps_arg6]
theorem keeps_arg7 (V : Valuation τ sig (Elt Ideal)) :
    after (opsPre ++ opsPost) V (Proc.devRef .tc main_arg7) = V (Proc.devRef .tc main_arg7) := by
  rw [HostFold.after_append, opsPost_keeps_arg7, opsPre_keeps_arg7]
theorem keeps_arg8 (V : Valuation τ sig (Elt Ideal)) :
    after (opsPre ++ opsPost) V (Proc.devRef .tc main_arg8) = V (Proc.devRef .tc main_arg8) := by
  rw [HostFold.after_append, opsPost_keeps_arg8, opsPre_keeps_arg8]
theorem keeps_arg9 (V : Valuation τ sig (Elt Ideal)) :
    after (opsPre ++ opsPost) V (Proc.devRef .tc main_arg9) = V (Proc.devRef .tc main_arg9) := by
  rw [HostFold.after_append, opsPost_keeps_arg9, opsPre_keeps_arg9]

/-- On every device, from any memory with zero counters: every weakly fair execution of the reference program terminates
    with the specification's function of the aggregated features and the arguments in the result buffer, and with the
    arguments as they began. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v68)
          = Cert.Mlp.G (agg m c) (m ((c.tc : Thread nD τ).loc main_arg0)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨(h c main_v68).trans (value m c),
      (h c main_arg0).trans (keeps_arg0 _),
      (h c main_arg1).trans (keeps_arg1 _),
      (h c main_arg2).trans (keeps_arg2 _),
      (h c main_arg3).trans (keeps_arg3 _),
      (h c main_arg4).trans (keeps_arg4 _),
      (h c main_arg5).trans (keeps_arg5 _),
      (h c main_arg6).trans (keeps_arg6 _),
      (h c main_arg7).trans (keeps_arg7 _),
      (h c main_arg8).trans (keeps_arg8 _),
      (h c main_arg9).trans (keeps_arg9 _)⟩)
    (run_fold (F := Ideal) m ρ)

end Cert.ReferenceIdeal.Hand

end
-- ==== Proof.AggBridge.lean ====
/-
  The aggregated features are the same function of the arguments in both programs.

  Both programs compute the graph convolution by the same sequence of host operations — degrees by a scattered sum of ones,
  their inverse square roots where positive, the two endpoint factors gathered and multiplied, the projected rows gathered,
  scaled and scattered back, the bias row added — each over its own buffers.  From launch contents that agree on the four
  arguments those operations read, the two buffers of aggregated features hold the same array.  The operations themselves
  are never opened: the two composed terms are compared operation by operation.
-/
import proofs.«110510_j54503134986926_2_alg».proof.Proof.Gen.KernelIdeal.Frame
import proofs.«110510_j54503134986926_2_alg».proof.Proof.RefRun
import Idealize.ShloMosaic.Lib.StableHlo.Run
import Idealize.ShloMosaic.PureOps.Ideal
import proofs.«110510_j54503134986926_2_alg».proof.Proof.LibRowLayout

noncomputable section

open Idealize.ShloMosaic Idealize.ShloMosaic.TcCoe Idealize.SL.Sem Idealize.ShloMosaic.StableHlo

namespace Cert.AggBridge

set_option maxHeartbeats 1500000 in
/-- From launch contents that agree on the four arguments the graph convolution reads, the kernel program's aggregated
    features (as the region finds them) are the array the reference's first stretch of operations leaves in its own
    buffer.  Both are evaluated to the composed term of their program's operations over the four arguments — a join of two
    pieces first written as a function of the two pieces, so that the evaluation reaches inside it —, the reference's
    arguments are replaced by the kernel program's, and the two terms are then the same operation by operation. -/
theorem agg_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.KernelIdeal.Gen.V m c Cert.KernelIdeal.main_v51 : (⟨2, ![120000, 64]⟩ : Shape).Idx → EReal)
      = StableHlo.after (Cert.ReferenceIdeal.Hand.opsPre (F := Ideal)) (StableHlo.launchContents m' c) (Proc.devRef .tc Cert.ReferenceIdeal.main_v51) := by
  dsimp only [Cert.KernelIdeal.Gen.V, Cert.KernelIdeal.Gen.V0]
  simp only [Cert.KernelIdeal.Gen.hostOps0, Cert.KernelIdeal.Gen.hostOps0_1, Cert.KernelIdeal.Gen.hostOps0_2, Cert.ReferenceIdeal.Hand.opsPre,
    List.flatten_cons, List.flatten_nil, List.append_nil, List.cons_append, List.nil_append]
  simp only [RowLayout.concat2_eq]
  after_results_simp
  have e0 : launchContents m' c (Proc.devRef .tc Cert.ReferenceIdeal.main_arg0) = m (c, Proc.devRef .tc Cert.KernelIdeal.main_arg0) := h0
  have e1 : launchContents m' c (Proc.devRef .tc Cert.ReferenceIdeal.main_arg1) = m (c, Proc.devRef .tc Cert.KernelIdeal.main_arg1) := h1
  have e2 : launchContents m' c (Proc.devRef .tc Cert.ReferenceIdeal.main_arg2) = m (c, Proc.devRef .tc Cert.KernelIdeal.main_arg2) := h2
  have e3 : launchContents m' c (Proc.devRef .tc Cert.ReferenceIdeal.main_arg3) = m (c, Proc.devRef .tc Cert.KernelIdeal.main_arg3) := h3
  rw [e0, e1, e2, e3]
  rfl

end Cert.AggBridge

end
-- ==== Proof.lean ====
/-
  A graph-convolution aggregation followed by a three-layer perceptron per node: the kernel program against its
  einsum reference, equal over the extended reals.

  Both programs compute the aggregated features (self-loops added, symmetric degree normalisation, gather, scale,
  scatter-add, bias) by the same host operations, so that array is carried as one opaque value and proved equal on
  the two sides operation for operation.  What differs is the perceptron: the kernel runs it in one call over twenty
  blocks of 6000 rows, with the weight matrices transposed beforehand, the dense layers as matrix products into a
  zero accumulator and the last projection as a lane sum; the reference reshapes the rows to 20000 × 6 and contracts
  with the untransposed weights.  Index by index both are the same finite sums of products (a change of float format
  is the identity on the extended reals), so no algebraic law beyond `0 + x = x` is used and the precondition is
  never opened.  Every result of both programs is stated as the one function `Cert.Mlp.G` of the aggregated features
  and the arguments; the ideal pass rewrote nothing, so the preservation claim is trivial.
-/
import proofs.«110510_j54503134986926_2_alg».proof.Defs
import proofs.«110510_j54503134986926_2_alg».proof.Proof.Gen.Kernel
import proofs.«110510_j54503134986926_2_alg».proof.Proof.Gen.Kernel.Skeleton
import proofs.«110510_j54503134986926_2_alg».proof.Proof.Gen.Kernel.Launch
import proofs.«110510_j54503134986926_2_alg».proof.Proof.Gen.Kernel.Points
import proofs.«110510_j54503134986926_2_alg».proof.Proof.Gen.Kernel.Frame
import proofs.«110510_j54503134986926_2_alg».proof.Proof.Gen.KernelIdeal
import proofs.«110510_j54503134986926_2_alg».proof.Proof.Gen.KernelIdeal.Skeleton
import proofs.«110510_j54503134986926_2_alg».proof.Proof.Gen.KernelIdeal.Launch
import proofs.«110510_j54503134986926_2_alg».proof.Proof.Gen.KernelIdeal.Points
import proofs.«110510_j54503134986926_2_alg».proof.Proof.Gen.KernelIdeal.Frame
import proofs.«110510_j54503134986926_2_alg».proof.Proof.Gen.ReferenceIdeal
import proofs.«110510_j54503134986926_2_alg».proof.Proof.Gen.Pre_finite_inputs
import proofs.«110510_j54503134986926_2_alg».proof.Proof.KFinal
import proofs.«110510_j54503134986926_2_alg».proof.Proof.KTail
import proofs.«110510_j54503134986926_2_alg».proof.Proof.RefValue
import proofs.«110510_j54503134986926_2_alg».proof.Proof.AggBridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Hand.run m ρ)

/-- From memories agreeing on the arguments both programs end with the specification's function of the aggregated
    features and the arguments; the aggregated features agree because the same host operations compute them from
    arguments that agree. -/
theorem algebraic : Cert.algebraic_KernelIdeal_ReferenceIdeal := by
  intro m ρ m' ρ' _ hagree
  refine ⟨_, Cert.KernelIdeal.Tail.run m ρ (Cert.KernelIdeal.Blocks.final m), ?_⟩
  refine (θ_run Cert.ReferenceIdeal.defs _ _).mono (fun _ h c => ⟨(h c).1.trans ?_, (h c).2⟩)
    (Cert.ReferenceIdeal.Hand.run m' ρ')
  obtain ⟨h0, h1, h2, h3, h4, h5, h6, h7, h8, h9⟩ := hagree c
  have hb := Cert.AggBridge.agg_eq m m' c h0 h1 h2 h3
  rw [h0, h4, h5, h6, h7, h8, h9]
  exact congrArg (fun a => Cert.Mlp.G a _ _ _ _ _ _ _) hb.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
